-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S500000 : Shape := ⟨1, ![500000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S64 .f32) (main_arg18 : FVec F S64x1 .f32) (main_arg19 : FVec F S1 .f32) (main_v63 : IVec S_ 1) (main_v67 : IVec S_ 1) : IVec S_ 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x1 .f32 := Host.absf main_arg18
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg19
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg14 : FVec F S64 .f32) (main_arg15 : FVec F S64 .f32) (main_arg16 : FVec F S128x64 .f32) (main_arg17 : FVec F S64 .f32) (main_arg18 : FVec F S64x1 .f32) (main_arg19 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x64 .f32 := Host.absf main_arg16
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg17 main_arg18 main_arg19 main_v63 main_v67

def fn_part2 {F : FTy → Type} [FloatOps F] (main_arg10 : FVec F S128x64 .f32) (main_arg11 : FVec F S64 .f32) (main_arg12 : FVec F S64 .f32) (main_arg13 : FVec F S64 .f32) (main_arg14 : FVec F S64 .f32) (main_arg15 : FVec F S64 .f32) (main_arg16 : FVec F S128x64 .f32) (main_arg17 : FVec F S64 .f32) (main_arg18 : FVec F S64x1 .f32) (main_arg19 : FVec F S1 .f32) (main_v33 : IVec S_ 1) : IVec S_ 1 :=
  let main_v34 : FVec F S128x64 .f32 := Host.absf main_arg10
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_arg15 main_arg16 main_arg17 main_arg18 main_arg19 main_v48 main_v49 main_v50

def fn_part1 {F : FTy → Type} [FloatOps F] (main_arg7 : FVec F S128 .f32) (main_arg8 : FVec F S128 .f32) (main_arg9 : FVec F S128 .f32) (main_arg10 : FVec F S128x64 .f32) (main_arg11 : FVec F S64 .f32) (main_arg12 : FVec F S64 .f32) (main_arg13 : FVec F S64 .f32) (main_arg14 : FVec F S64 .f32) (main_arg15 : FVec F S64 .f32) (main_arg16 : FVec F S128x64 .f32) (main_arg17 : FVec F S64 .f32) (main_arg18 : FVec F S64x1 .f32) (main_arg19 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : FVec F S50000x512 .f32) (main_arg1 : IVec S2x1600000 32) (main_arg2 : IVec S500000 32) (main_arg3 : IVec S500000 32) (main_arg4 : FVec F S512x128 .f32) (main_arg5 : FVec F S128 .f32) (main_arg6 : FVec F S128 .f32) (main_arg7 : FVec F S128 .f32) (main_arg8 : FVec F S128 .f32) (main_arg9 : FVec F S128 .f32) (main_arg10 : FVec F S128x64 .f32) (main_arg11 : FVec F S64 .f32) (main_arg12 : FVec F S64 .f32) (main_arg13 : FVec F S64 .f32) (main_arg14 : FVec F S64 .f32) (main_arg15 : FVec F S64 .f32) (main_arg16 : FVec F S128x64 .f32) (main_arg17 : FVec F S64 .f32) (main_arg18 : FVec F S64x1 .f32) (main_arg19 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg4
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S50000x512 : Shape := ⟨2, ![50000, 512]⟩
abbrev S2x1600000 : Shape := ⟨2, ![2, 1600000]⟩
abbrev S500000 : Shape := ⟨1, ![500000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x128 : Shape := ⟨2, ![50000, 128]⟩
abbrev S2000x512 : Shape := ⟨2, ![2000, 512]⟩
abbrev S2000x128 : Shape := ⟨2, ![2000, 128]⟩
abbrev S1600000x128 : Shape := ⟨2, ![1600000, 128]⟩
abbrev S50000x1 : Shape := ⟨2, ![50000, 1]⟩
abbrev S1x128 : Shape := ⟨2, ![1, 128]⟩
abbrev S50000x64 : Shape := ⟨2, ![50000, 64]⟩
abbrev S2000x64 : Shape := ⟨2, ![2000, 64]⟩
abbrev S1600000x64 : Shape := ⟨2, ![1600000, 64]⟩
abbrev S1x64 : Shape := ⟨2, ![1, 64]⟩
abbrev S64x64 : Shape := ⟨2, ![64, 64]⟩
abbrev S64x128 : Shape := ⟨2, ![64, 128]⟩
abbrev S500000x1 : Shape := ⟨2, ![500000, 1]⟩
abbrev S500000x64 : Shape := ⟨2, ![500000, 64]⟩
abbrev S1x1 : Shape := ⟨2, ![1, 1]⟩
abbrev S5000x64 : Shape := ⟨2, ![5000, 64]⟩
abbrev S5000x1 : Shape := ⟨2, ![5000, 1]⟩
abbrev S5000 : Shape := ⟨1, ![5000]⟩

abbrev nBuf : Space → Nat
  | .hbm => 139
  | .vmem => 32
  | .smem => 0
  | _ => 0

abbrev hbmTy0_0 (i : Nat) : BufTy := match i % 128 with
  | 0 => ⟨S50000x512, .f32⟩
  | 1 => ⟨S2x1600000, .i32⟩
  | 2 => ⟨S500000, .i32⟩
  | 3 => ⟨S500000, .i32⟩
  | 4 => ⟨S512x128, .f32⟩
  | 5 => ⟨S128, .f32⟩
  | 6 => ⟨S128, .f32⟩
  | 7 => ⟨S128, .f32⟩
  | 8 => ⟨S128, .f32⟩
  | 9 => ⟨S128, .f32⟩
  | 10 => ⟨S128x64, .f32⟩
  | 11 => ⟨S64, .f32⟩
  | 12 => ⟨S64, .f32⟩
  | 13 => ⟨S64, .f32⟩
  | 14 => ⟨S64, .f32⟩
  | 15 => ⟨S64, .f32⟩
  | 16 => ⟨S128x64, .f32⟩
  | 17 => ⟨S64, .f32⟩
  | 18 => ⟨S64x1, .f32⟩
  | 19 => ⟨S1, .f32⟩
  | 20 => ⟨S1x1600000, .i32⟩
  | 21 => ⟨S1600000, .i32⟩
  | 22 => ⟨S1x1600000, .i32⟩
  | 23 => ⟨S1600000, .i32⟩
  | 24 => ⟨S_, .f32⟩
  | 25 => ⟨S1600000, .f32⟩
  | 26 => ⟨S_, .f32⟩
  | 27 => ⟨S50000, .f32⟩
  | 28 => ⟨S1600000x1, .i32⟩
  | 29 => ⟨S50000, .f32⟩
  | 30 => ⟨S_, .f32⟩
  | 31 => ⟨S50000, .f32⟩
  | 32 => ⟨S50000, .f32⟩
  | 33 => ⟨S50000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S50000, .f32⟩
  | 54 => ⟨S50000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x1, .f32⟩
  | 65 => ⟨S1600000x128, .f32⟩
  | 66 => ⟨S1600000x128, .f32⟩
  | 67 => ⟨S_, .f32⟩
  | 68 => ⟨S50000x128, .f32⟩
  | 69 => ⟨S1600000x1, .i32⟩
  | 70 => ⟨S50000x128, .f32⟩
  | 71 => ⟨S50000x1, .f32⟩
  | 72 => ⟨S50000x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S1x128, .f32⟩
  | 80 => ⟨S1x128, .f32⟩
  | 81 => ⟨S1x128, .f32⟩
  | 82 => ⟨S50000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S1600000x1, .f32⟩
  | 93 => ⟨S1600000x64, .f32⟩
  | 94 => ⟨S1600000x64, .f32⟩
  | 95 => ⟨S_, .f32⟩
  | 96 => ⟨S50000x64, .f32⟩
  | 97 => ⟨S1600000x1, .i32⟩
  | 98 => ⟨S50000x64, .f32⟩
  | 99 => ⟨S50000x1, .f32⟩
  | 100 => ⟨S50000x64, .f32⟩
  | 101 => ⟨S50000x64, .f32⟩
  | 102 => ⟨S50000x64, .f32⟩
  | 103 => ⟨S1x64, .f32⟩
  | 104 => ⟨S50000x64, .f32⟩
  | 105 => ⟨S50000x64, .f32⟩
  | 106 => ⟨S64x64, .f32⟩
  | 107 => ⟨S64x64, .f32⟩
  | 108 => ⟨S64x128, .f32⟩
  | 109 => ⟨S1x64, .f32⟩
  | 110 => ⟨S1x64, .f32⟩
  | 111 => ⟨S1x64, .f32⟩
  | 112 => ⟨S1x64, .f32⟩
  | 113 => ⟨S50000x128, .f32⟩
  | 114 => ⟨S50000x64, .f32⟩
  | 115 => ⟨S50000x64, .f32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000x64, .f32⟩
  | 125 => ⟨S_, .i32⟩
  | 126 => ⟨S500000, .i32⟩
  | 127 => ⟨S500000, .i1⟩
  | _ => ⟨S50000x512, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x64, .f32⟩
  | 6 => ⟨S1x64, .f32⟩
  | 7 => ⟨S1x64, .f32⟩
  | 8 => ⟨S1x1, .f32⟩
  | 9 => ⟨S500000x1, .f32⟩
  | 10 => ⟨S500000, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S64x128, .f32⟩
  | .local _ .vmem, ⟨21, _⟩ => ⟨S2000x128, .f32⟩
  | .local _ .vmem, ⟨22, _⟩ => ⟨S2000x128, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S1x64, .f32⟩
  | .local _ .vmem, ⟨29, _⟩ => ⟨S1x1, .f32⟩
  | .local _ .vmem, ⟨30, _⟩ => ⟨S5000x1, .f32⟩
  | .local _ .vmem, ⟨31, _⟩ => ⟨S5000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_5 : Ref sig .tc := ⟨.hbm, 55, rfl⟩
abbrev main_v28 : Ref sig .tc := ⟨.hbm, 56, rfl⟩
abbrev main_v29 : Ref sig .tc := ⟨.hbm, 57, rfl⟩
abbrev main_c_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_8 : Ref sig .tc := ⟨.hbm, 83, rfl⟩
abbrev main_v53 : Ref sig .tc := ⟨.hbm, 84, rfl⟩
abbrev main_v54 : Ref sig .tc := ⟨.hbm, 85, rfl⟩
abbrev main_c_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_11 : Ref sig .tc := ⟨.hbm, 116, rfl⟩
abbrev main_v83 : Ref sig .tc := ⟨.hbm, 117, rfl⟩
abbrev main_v84 : Ref sig .tc := ⟨.hbm, 118, rfl⟩
abbrev main_c_12 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_13 : Ref sig .tc := ⟨.hbm, 125, rfl⟩
abbrev main_v90 : Ref sig .tc := ⟨.hbm, 126, rfl⟩
abbrev main_v91 : Ref sig .tc := ⟨.hbm, 127, rfl⟩
abbrev main_c_14 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S128x64_S64x64_0_0 : S128x64.Slices ![0, 0] S64x64
  slices_S128x64_S64x64_64_0 : S128x64.Slices ![64, 0] S64x64
  concatenates_S64x64_S64x64_S64x128_d1 : Shape.Concatenates [S64x64, S64x64] S64x128 1
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  slices_S50000x128_S50000x64_0_0 : S50000x128.Slices ![0, 0] S50000x64
  slices_S50000x128_S50000x64_0_64 : S50000x128.Slices ![0, 64] S50000x64
  bcast_S_S500000 : S_.BroadcastsInDim S500000 (![] : Fin 0 → Fin S500000.rank)
  bcast_S500000_S500000x1_0 : S500000.BroadcastsInDim S500000x1 (![0] : Fin 1 → Fin S500000x1.rank)
  shapeCasts_S64x1_S1x64 : S64x1.ShapeCasts S1x64
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  reduces_S5000x64_S5000 : S5000x64.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S2000x512_S512x128_S2000x128_1_0_0_1_n_n_wf : DotDims.WF S2000x512 S512x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x64_S2000x64_1_0_0_1_n_n_wf : DotDims.WF S2000x128 S128x64 S2000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S2000x64_S64x128_S2000x128_1_0_0_1_n_n_wf : DotDims.WF S2000x64 S64x128 S2000x128 [1] [0] [0] [1] [] []
  gather_S50000x64_S500000x1_S500000x64_1_0_n_n_0_1_164_wf : GatherDims.WF S50000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .f32 = 32 ∨ (Rect.block (s := S64x128) S64x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S500000x64.size a
  hwx3_0 : ∀ i : grid3.Coords, EltTy.bits .f32 = 32 ∨ (Rect.block (s := S500000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S500000x64.size a
  hwx3_1 : ∀ i : grid3.Coords, EltTy.bits .f32 = 32 ∨ (Rect.block (s := S500000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S500000x1.size a
  hwx3_5 : ∀ i : grid3.Coords, EltTy.bits .f32 = 32 ∨ (Rect.block (s := S500000x1) S5000x1.size (cc3_transform_5 i) (hinb3_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v72) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v80) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v89) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v96) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v98) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v97) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v99) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v100) S5000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S500000 : Shape := ⟨1, ![500000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000x128 : Shape := ⟨2, ![50000, 128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x64 : Shape := ⟨2, ![50000, 64]⟩
abbrev S1600000x64 : Shape := ⟨2, ![1600000, 64]⟩
abbrev S1x64 : Shape := ⟨2, ![1, 64]⟩
abbrev S500000x1 : Shape := ⟨2, ![500000, 1]⟩
abbrev S500000x64 : Shape := ⟨2, ![500000, 64]⟩
abbrev S500000x128 : Shape := ⟨2, ![500000, 128]⟩
abbrev S1x1 : Shape := ⟨2, ![1, 1]⟩

abbrev nBuf : Space → Nat
  | .hbm => 213
  | .vmem => 0
  | .smem => 0
  | _ => 0

abbrev hbmTy0_0 (i : Nat) : BufTy := match i % 128 with
  | 0 => ⟨S50000x512, .f32⟩
  | 1 => ⟨S2x1600000, .i32⟩
  | 2 => ⟨S500000, .i32⟩
  | 3 => ⟨S500000, .i32⟩
  | 4 => ⟨S512x128, .f32⟩
  | 5 => ⟨S128, .f32⟩
  | 6 => ⟨S128, .f32⟩
  | 7 => ⟨S128, .f32⟩
  | 8 => ⟨S128, .f32⟩
  | 9 => ⟨S128, .f32⟩
  | 10 => ⟨S128x64, .f32⟩
  | 11 => ⟨S64, .f32⟩
  | 12 => ⟨S64, .f32⟩
  | 13 => ⟨S64, .f32⟩
  | 14 => ⟨S64, .f32⟩
  | 15 => ⟨S64, .f32⟩
  | 16 => ⟨S128x64, .f32⟩
  | 17 => ⟨S64, .f32⟩
  | 18 => ⟨S64x1, .f32⟩
  | 19 => ⟨S1, .f32⟩
  | 20 => ⟨S50000x128, .f32⟩
  | 21 => ⟨S1x1600000, .i32⟩
  | 22 => ⟨S1600000, .i32⟩
  | 23 => ⟨S1x1600000, .i32⟩
  | 24 => ⟨S1600000, .i32⟩
  | 25 => ⟨S_, .f32⟩
  | 26 => ⟨S1600000, .f32⟩
  | 27 => ⟨S_, .f32⟩
  | 28 => ⟨S50000, .f32⟩
  | 29 => ⟨S1600000x1, .i32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S1600000x1, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x128, .f32⟩
  | 65 => ⟨S1600000x128, .f32⟩
  | 66 => ⟨S_, .f32⟩
  | 67 => ⟨S50000x128, .f32⟩
  | 68 => ⟨S1600000x1, .i32⟩
  | 69 => ⟨S50000x128, .f32⟩
  | 70 => ⟨S50000, .f32⟩
  | 71 => ⟨S50000x1, .f32⟩
  | 72 => ⟨S50000x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S128, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x64, .f32⟩
  | 98 => ⟨S1x1600000, .i32⟩
  | 99 => ⟨S1600000, .i32⟩
  | 100 => ⟨S1x1600000, .i32⟩
  | 101 => ⟨S1600000, .i32⟩
  | 102 => ⟨S_, .f32⟩
  | 103 => ⟨S1600000, .f32⟩
  | 104 => ⟨S_, .f32⟩
  | 105 => ⟨S50000, .f32⟩
  | 106 => ⟨S1600000x1, .i32⟩
  | 107 => ⟨S50000, .f32⟩
  | 108 => ⟨S_, .f32⟩
  | 109 => ⟨S50000, .f32⟩
  | 110 => ⟨S50000, .f32⟩
  | 111 => ⟨S50000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S50000x512, .f32⟩

abbrev hbmTy0_1 (i : Nat) : BufTy := match i % 128 with
  | 0 => ⟨S1600000x1, .i32⟩
  | 1 => ⟨S1600000, .f32⟩
  | 2 => ⟨S1600000, .f32⟩
  | 3 => ⟨S1600000x1, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x64, .f32⟩
  | 13 => ⟨S1600000x64, .f32⟩
  | 14 => ⟨S1600000x64, .f32⟩
  | 15 => ⟨S_, .f32⟩
  | 16 => ⟨S50000x64, .f32⟩
  | 17 => ⟨S1600000x1, .i32⟩
  | 18 => ⟨S50000x64, .f32⟩
  | 19 => ⟨S50000, .f32⟩
  | 20 => ⟨S50000x1, .f32⟩
  | 21 => ⟨S50000x64, .f32⟩
  | 22 => ⟨S50000x64, .f32⟩
  | 23 => ⟨S50000x64, .f32⟩
  | 24 => ⟨S1x64, .f32⟩
  | 25 => ⟨S50000x64, .f32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S64, .f32⟩
  | 32 => ⟨S64, .f32⟩
  | 33 => ⟨S64, .f32⟩
  | 34 => ⟨S1x64, .f32⟩
  | 35 => ⟨S50000x64, .f32⟩
  | 36 => ⟨S50000x64, .f32⟩
  | 37 => ⟨S1x64, .f32⟩
  | 38 => ⟨S50000x64, .f32⟩
  | 39 => ⟨S50000x64, .f32⟩
  | 40 => ⟨S1x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x64, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x64, .f32⟩
  | 64 => ⟨S500000x128, .f32⟩
  | 65 => ⟨S500000x64, .f32⟩
  | 66 => ⟨S1x64, .f32⟩
  | 67 => ⟨S500000x64, .f32⟩
  | 68 => ⟨S500000x64, .f32⟩
  | 69 => ⟨S_, .f32⟩
  | 70 => ⟨S500000x64, .f32⟩
  | 71 => ⟨S500000x64, .f32⟩
  | 72 => ⟨S500000x1, .f32⟩
  | 73 => ⟨S1x1, .f32⟩
  | 74 => ⟨S500000x1, .f32⟩
  | 75 => ⟨S500000x1, .f32⟩
  | 76 => ⟨S500000x1, .f32⟩
  | 77 => ⟨S500000x1, .f32⟩
  | 78 => ⟨S_, .f32⟩
  | 79 => ⟨S500000x1, .f32⟩
  | 80 => ⟨S500000x1, .f32⟩
  | 81 => ⟨S_, .f32⟩
  | 82 => ⟨S500000x1, .f32⟩
  | 83 => ⟨S500000x1, .f32⟩
  | 84 => ⟨S500000, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_3 : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_5 : Ref sig .tc := ⟨.hbm, 55, rfl⟩
abbrev main_v28 : Ref sig .tc := ⟨.hbm, 56, rfl⟩
abbrev main_v29 : Ref sig .tc := ⟨.hbm, 57, rfl⟩
abbrev main_c_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call0_cst : Ref sig .tc := ⟨.hbm, 94, rfl⟩
abbrev main_call0_v0 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_9 : Ref sig .tc := ⟨.hbm, 102, rfl⟩
abbrev main_v69 : Ref sig .tc := ⟨.hbm, 103, rfl⟩
abbrev main_cst_10 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_12 : Ref sig .tc := ⟨.hbm, 112, rfl⟩
abbrev main_v76 : Ref sig .tc := ⟨.hbm, 113, rfl⟩
abbrev main_v77 : Ref sig .tc := ⟨.hbm, 114, rfl⟩
abbrev main_c_13 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_14 : Ref sig .tc := ⟨.hbm, 121, rfl⟩
abbrev main_v83 : Ref sig .tc := ⟨.hbm, 122, rfl⟩
abbrev main_v84 : Ref sig .tc := ⟨.hbm, 123, rfl⟩
abbrev main_c_15 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_16 : Ref sig .tc := ⟨.hbm, 132, rfl⟩
abbrev main_v92 : Ref sig .tc := ⟨.hbm, 133, rfl⟩
abbrev main_v93 : Ref sig .tc := ⟨.hbm, 134, rfl⟩
abbrev main_c_17 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_18 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_19 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_call1_cst : Ref sig .tc := ⟨.hbm, 171, rfl⟩
abbrev main_call1_v0 : Ref sig .tc := ⟨.hbm, 172, rfl⟩
abbrev main_v127 : Ref sig .tc := ⟨.hbm, 173, rfl⟩
abbrev main_c_20 : Ref sig .tc := ⟨.hbm, 174, rfl⟩
abbrev main_v128 : Ref sig .tc := ⟨.hbm, 175, rfl⟩
abbrev main_v129 : Ref sig .tc := ⟨.hbm, 176, rfl⟩
abbrev main_c_21 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_c_22 : Ref sig .tc := ⟨.hbm, 183, rfl⟩
abbrev main_v135 : Ref sig .tc := ⟨.hbm, 184, rfl⟩
abbrev main_v136 : Ref sig .tc := ⟨.hbm, 185, rfl⟩
abbrev main_c_23 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_call2_cst : Ref sig .tc := ⟨.hbm, 197, rfl⟩
abbrev main_call2_v0 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_24 : Ref sig .tc := ⟨.hbm, 206, rfl⟩
abbrev main_v154 : Ref sig .tc := ⟨.hbm, 207, rfl⟩
abbrev main_v155 : Ref sig .tc := ⟨.hbm, 208, rfl⟩
abbrev main_cst_25 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x128_d1 : Shape.Concatenates [S500000x64, S500000x64] S500000x128 1
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  shapeCasts_S500000x1_S500000 : S500000x1.ShapeCasts S500000
  dot_S50000x512_S512x128_S50000x128_1_0_0_1_n_n_wf : DotDims.WF S50000x512 S512x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  gather_S50000x64_S500000x1_S500000x64_1_0_n_n_0_1_164_wf : GatherDims.WF S50000x64 S500000x1 S500000x64 [1] [0] [] [0] [] 1 ![1, 64]
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.KernelRun.lean ====
/-
  The idealized kernel's run, read at its last segment boundary.

  The program is four pipelined regions among stretches of host operations. The generated frame module folds the
  buffer contents through the program's segments: `Gen.W9 m ρ c` is what every buffer that outlives the regions holds
  after the last host stretch, as a term of the launch memory. Here the run is stated with that fold kept for EVERY
  such buffer (`run_all`), and then for the result buffer beside the unchanged arguments (`run_value`); what the fold
  IS at the result buffer, as a function of the arguments, is the business of the modules that import this one.
-/
import proofs.«154364_j16518444221032_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault, and every buffer that outlives
    the regions ends at the last boundary's contents `W9 m ρ c`: the segments are run in order from the launch
    memory, each host stretch moving the contents by `StableHlo.after`, each region by its write-backs. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same run with the result buffer named: it ends at the last boundary's contents of the result, and the
    twenty argument arrays end as launched (no host operation and no region writes one). -/
theorem run_value : θ_run defs (onTc (τ := τ) (main (F := F))) ⟨m, fun _ => 0, ρ⟩ (fun r => ∀ c : Dev nD,
      r.2.mem ((c.tc : Thread nD τ).loc main_v101) = W9 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨h c _ (mem_uc main_v101 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c),
     (h c _ (mem_uc main_arg14 (by decide))).trans (W9_main_arg14 m ρ c),
     (h c _ (mem_uc main_arg15 (by decide))).trans (W9_main_arg15 m ρ c),
     (h c _ (mem_uc main_arg16 (by decide))).trans (W9_main_arg16 m ρ c),
     (h c _ (mem_uc main_arg17 (by decide))).trans (W9_main_arg17 m ρ c),
     (h c _ (mem_uc main_arg18 (by decide))).trans (W9_main_arg18 m ρ c),
     (h c _ (mem_uc main_arg19 (by decide))).trans (W9_main_arg19 m ρ c)⟩)
    (run_all m ρ)

end Cert.KernelIdeal.Hand

end
-- ==== Proof.BlockProducts.lean ====
/-
  The three matrix products the kernel's bodies compute on a block of rows, read entry by entry at the ideal
  instance: a product into a zero accumulator is the plain row–column sum over the contracted axis. Each body
  multiplies a block of 2000 rows by a whole weight matrix, so entry (p, q) of the block's product only involves row p
  of the block.
-/
import proofs.«154364_j16518444221032_2_alg».proof.Proof.Gen.KernelIdeal
import Idealize.ShloMosaic.Lib.ValueIdx
import Idealize.ShloMosaic.PureOps.Ideal.Laws

noncomputable section

namespace Cert.KernelIdeal.Hand

open Idealize.ShloMosaic Idealize.ShloMosaic.ValueIdx Cert.KernelIdeal

/-! ### A [2000, 512] block times a [512, 128] matrix -/

theorem lhs0_xw (i : S2000x128.Idx) (q : dot_S2000x512_S512x128_S2000x128_1_0_0_1_n_n.contr.Idx) : (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs1_xw (i : S2000x128.Idx) (q : dot_S2000x512_S512x128_S2000x128_1_0_0_1_n_n.contr.Idx) : (dot_S2000x512_S512x128_S2000x128_1_0_0_1_n_n.lhsIdx i q 1).val = (q ⟨0, by decide⟩).val :=
  dot_S2000x512_S512x128_S2000x128_1_0_0_1_n_n.lhsIdx_val_of_single rfl i q
theorem rhs0_xw (i : S2000x128.Idx) (q : dot_S2000x512_S512x128_S2000x128_1_0_0_1_n_n.contr.Idx) : (dot_S2000x512_S512x128_S2000x128_1_0_0_1_n_n.rhsIdx i q 0).val = (q ⟨0, by decide⟩).val :=
  dot_S2000x512_S512x128_S2000x128_1_0_0_1_n_n.rhsIdx_val_of_single rfl i q
theorem rhs1_xw (i : S2000x128.Idx) (q : dot_S2000x512_S512x128_S2000x128_1_0_0_1_n_n.contr.Idx) : (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- Entry (p, q) of the block's product into a zero accumulator is the row–column sum `Σ_k lhs[p,k] · rhs[k,q]`
    over the 512 contracted coordinates. -/
theorem mm_xw {φ₁ φ₂ : FTy} (lhs : FVec Ideal S2000x512 φ₁) (rhs : FVec Ideal S512x128 φ₂) (p : Fin 2000) (q : Fin 128) :
    matmul dot_S2000x512_S512x128_S2000x128_1_0_0_1_n_n none lhs rhs (constant S2000x128 .f32 0x00000000#32) (ix2 p q)
      = ∑ k : Fin 512, lhs (ix2 p k) * rhs (ix2 k q) := by
  rw [show matmul dot_S2000x512_S512x128_S2000x128_1_0_0_1_n_n none lhs rhs (constant S2000x128 .f32 0x00000000#32) (ix2 p q)
        = ∑ k : dot_S2000x512_S512x128_S2000x128_1_0_0_1_n_n.contr.Idx, lhs (dot_S2000x512_S512x128_S2000x128_1_0_0_1_n_n.lhsIdx (ix2 p q) k) * rhs (dot_S2000x512_S512x128_S2000x128_1_0_0_1_n_n.rhsIdx (ix2 p q) k)
      from Ideal.matmul_constant_zero_apply _ _ _ _ _,
    ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun a => Fin.ext (by
    match a with
    | ⟨0, _⟩ => exact lhs0_xw _ _
    | ⟨1, _⟩ => exact (lhs1_xw _ _).trans hk)
  have er : dot_S2000x512_S512x128_S2000x128_1_0_0_1_n_n.rhsIdx (ix2 p q) ((contrEquiv1 dot_S2000x512_S512x128_S2000x128_1_0_0_1_n_n 512 rfl rfl).symm k) = ix2 k q := funext fun a => Fin.ext (by
    match a with
    | ⟨0, _⟩ => exact (rhs0_xw _ _).trans hk
    | ⟨1, _⟩ => exact rhs1_xw _ _)
  rw [el, er]

/-! ### A [2000, 128] block times a [128, 64] matrix -/

theorem lhs0_hw (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs1_hw (i : S2000x64.Idx) (q : dot_S2000x128_S128x64_S2000x64_1_0_0_1_n_n.contr.Idx) : (dot_S2000x128_S128x64_S2000x64_1_0_0_1_n_n.lhsIdx i q 1).val = (q ⟨0, by decide⟩).val :=
  dot_S2000x128_S128x64_S2000x64_1_0_0_1_n_n.lhsIdx_val_of_single rfl i q
theorem rhs0_hw (i : S2000x64.Idx) (q : dot_S2000x128_S128x64_S2000x64_1_0_0_1_n_n.contr.Idx) : (dot_S2000x128_S128x64_S2000x64_1_0_0_1_n_n.rhsIdx i q 0).val = (q ⟨0, by decide⟩).val :=
  dot_S2000x128_S128x64_S2000x64_1_0_0_1_n_n.rhsIdx_val_of_single rfl i q
theorem rhs1_hw (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry (p, q) of the block's product into a zero accumulator is the row–column sum `Σ_k lhs[p,k] · rhs[k,q]`
    over the 128 contracted coordinates. -/
theorem mm_hw {φ₁ φ₂ : FTy} (lhs : FVec Ideal S2000x128 φ₁) (rhs : FVec Ideal S128x64 φ₂) (p : Fin 2000) (q : Fin 64) :
    matmul dot_S2000x128_S128x64_S2000x64_1_0_0_1_n_n none lhs rhs (constant S2000x64 .f32 0x00000000#32) (ix2 p q)
      = ∑ k : Fin 128, lhs (ix2 p k) * rhs (ix2 k q) := by
  rw [show matmul dot_S2000x128_S128x64_S2000x64_1_0_0_1_n_n none lhs rhs (constant S2000x64 .f32 0x00000000#32) (ix2 p q)
        = ∑ k : dot_S2000x128_S128x64_S2000x64_1_0_0_1_n_n.contr.Idx, lhs (dot_S2000x128_S128x64_S2000x64_1_0_0_1_n_n.lhsIdx (ix2 p q) k) * rhs (dot_S2000x128_S128x64_S2000x64_1_0_0_1_n_n.rhsIdx (ix2 p q) k)
      from Ideal.matmul_constant_zero_apply _ _ _ _ _,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs0_hw _ _
    | ⟨1, _⟩ => exact (lhs1_hw _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs0_hw _ _).trans hk
    | ⟨1, _⟩ => exact rhs1_hw _ _)
  rw [el, er]

/-! ### A [2000, 64] block times a [64, 128] matrix -/

theorem lhs0_zw (i : S2000x128.Idx) (q : dot_S2000x64_S64x128_S2000x128_1_0_0_1_n_n.contr.Idx) : (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhs1_zw (i : S2000x128.Idx) (q : dot_S2000x64_S64x128_S2000x128_1_0_0_1_n_n.contr.Idx) : (dot_S2000x64_S64x128_S2000x128_1_0_0_1_n_n.lhsIdx i q 1).val = (q ⟨0, by decide⟩).val :=
  dot_S2000x64_S64x128_S2000x128_1_0_0_1_n_n.lhsIdx_val_of_single rfl i q
theorem rhs0_zw (i : S2000x128.Idx) (q : dot_S2000x64_S64x128_S2000x128_1_0_0_1_n_n.contr.Idx) : (dot_S2000x64_S64x128_S2000x128_1_0_0_1_n_n.rhsIdx i q 0).val = (q ⟨0, by decide⟩).val :=
  dot_S2000x64_S64x128_S2000x128_1_0_0_1_n_n.rhsIdx_val_of_single rfl i q
theorem rhs1_zw (i : S2000x128.Idx) (q : dot_S2000x64_S64x128_S2000x128_1_0_0_1_n_n.contr.Idx) : (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- Entry (p, q) of the block's product into a zero accumulator is the row–column sum `Σ_k lhs[p,k] · rhs[k,q]`
    over the 64 contracted coordinates. -/
theorem mm_zw {φ₁ φ₂ : FTy} (lhs : FVec Ideal S2000x64 φ₁) (rhs : FVec Ideal S64x128 φ₂) (p : Fin 2000) (q : Fin 128) :
    matmul dot_S2000x64_S64x128_S2000x128_1_0_0_1_n_n none lhs rhs (constant S2000x128 .f32 0x00000000#32) (ix2 p q)
      = ∑ k : Fin 64, lhs (ix2 p k) * rhs (ix2 k q) := by
  rw [show matmul dot_S2000x64_S64x128_S2000x128_1_0_0_1_n_n none lhs rhs (constant S2000x128 .f32 0x00000000#32) (ix2 p q)
        = ∑ k : dot_S2000x64_S64x128_S2000x128_1_0_0_1_n_n.contr.Idx, lhs (dot_S2000x64_S64x128_S2000x128_1_0_0_1_n_n.lhsIdx (ix2 p q) k) * rhs (dot_S2000x64_S64x128_S2000x128_1_0_0_1_n_n.rhsIdx (ix2 p q) k)
      from Ideal.matmul_constant_zero_apply _ _ _ _ _,
    ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
    match a with
    | ⟨0, _⟩ => exact lhs0_zw _ _
    | ⟨1, _⟩ => exact (lhs1_zw _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
    match a with
    | ⟨0, _⟩ => exact (rhs0_zw _ _).trans hk
    | ⟨1, _⟩ => exact rhs1_zw _ _)
  rw [el, er]

end Cert.KernelIdeal.Hand

end
-- ==== Proof.NodeProducts.lean ====
/-
  The first region: `x · W1`, 2000 rows at a time.

  The region's grid has 25 points. Point t stages rows 2000t … 2000t + 1999 of the [50000, 512] operand and the whole
  [512, 128] weight matrix, multiplies them into a zero accumulator, and writes the product back as rows
  2000t … 2000t + 1999 of the [50000, 128] result. Entry (r, q) of a product of a block of rows by a matrix only involves
  row r, so every point writes the restriction of ONE whole-array function, `rowsByW1`: entry (r, q) is
  `Σ_k x[r,k] · W1[k,q]`. The 25 blocks tile the result (row r lies in block r / 2000), so the result array ends at
  `rowsByW1` of the two operands as the region finds them. Everything is stated at arbitrary region-entry contents `V`.
-/
import proofs.«154364_j16518444221032_2_alg».proof.Proof.Gen.KernelIdeal.Frame
import proofs.«154364_j16518444221032_2_alg».proof.Proof.BlockProducts
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- Rows of a [50000, 512] array times a [512, 128] matrix: entry (r, q) is `Σ_k X[r,k] · W[k,q]`. -/
def rowsByW1 (X : S50000x512.Idx → EReal) (W : S512x128.Idx → EReal) : S50000x128.Idx → EReal :=
  fun i => ∑ k : Fin 512, X (ix2 ⟨(i 0).val, idx2_lt0 i⟩ k) * W (ix2 k ⟨(i 1).val, idx2_lt1 i⟩)

/-- The region's index maps over its 25 points: the row-blocked windows are at block (t, 0), the weight matrix at (0, 0). -/
theorem blockAt0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `rowsByW1` of the operands as the region finds them. -/
theorem xw_flushed (c : Dev nD) (t : Fin cfg0.N) :
    (dat0 V c).flushed 2 t = ((cfg0.win 2).blk t).view.read (Elt Ideal) (rowsByW1 (V c main_arg0) (V c main_arg4)) := by
  show (cfg0.win 2).cut (grid0.coords t) ((dat0 V c).after 2 t) = _
  rw [after0_2]
  unfold out0_2
  rw [View.canon_unit_zero zero2]
  simp only [View.ld_unit_zero (S := S2000x512) zero2, View.ld_unit_zero (S := S512x128) zero2]
  obtain ⟨e00, e01, e10, e11, e20, e21⟩ := blockAt0 t
  funext j
  obtain ⟨p, q, rfl⟩ : ∃ (p : Fin 2000) (q : Fin 128), j = ix2 p q := ⟨j 0, j 1, eq_ix2 j⟩
  show matmul (F := Ideal) dot_S2000x512_S512x128_S2000x128_1_0_0_1_n_n none (truncf .bf16 (iblk0 V c 0 t) bitsLt_bf16_f32)
      (truncf .bf16 (iblk0 V c 1 t) bitsLt_bf16_f32) (constant S2000x128 .f32 0x00000000#32) (ix2 p q)
    = rowsByW1 (V c main_arg0) (V c main_arg4) (((cfg0.win 2).blk t).view.emb (ix2 p q))
  rw [mm_xw]
  unfold rowsByW1
  refine Finset.sum_congr rfl fun k _ => ?_
  refine congrArg₂ (· * ·) ?_ ?_
  · show V c main_arg0 (((cfg0.win 0).blk t).view.emb (ix2 p k)) = V c main_arg0 _
    refine congrArg _ (funext fun a => Fin.ext ?_)
    match a with
    | ⟨0, _⟩ => show win0_0.index t (0 : Fin 2) * 2000 + 1 * p.val = win0_2.index t (0 : Fin 2) * 2000 + 1 * p.val; rw [e00, e20]
    | ⟨1, _⟩ => show win0_0.index t (1 : Fin 2) * 512 + 1 * k.val = k.val; rw [e01]; omega
  · show V c main_arg4 (((cfg0.win 1).blk t).view.emb (ix2 k q)) = V c main_arg4 _
    refine congrArg _ (funext fun a => Fin.ext ?_)
    match a with
    | ⟨0, _⟩ => show win0_1.index t (0 : Fin 2) * 512 + 1 * k.val = k.val; rw [e10]; omega
    | ⟨1, _⟩ => show win0_1.index t (1 : Fin 2) * 128 + 1 * q.val = win0_2.index t (1 : Fin 2) * 128 + 1 * q.val; rw [e11, e21]

/-- An index of the result lies in point `t`'s block iff each coordinate is in the block's range on its axis. -/
theorem xw_mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- The result array after the region: `rowsByW1` of the two operands (row r is written by point r / 2000). -/
theorem xw_final (c : Dev nD) : (dat0 V c).arrAt 2 cfg0.N = rowsByW1 (V c main_arg0) (V c main_arg4) :=
  (dat0 V c).arrAt_eq_of_cover 2 (rowsByW1 (V c main_arg0) (V c main_arg4)) (fun t _ => xw_flushed V c t) fun i => by
    have h0 : (i 0).val < 50000 := (i 0).isLt
    have h1 : (i 1).val < 128 := (i 1).isLt
    have hN : cfg0.N = 25 := N_0
    refine ⟨⟨(i 0).val / 2000, by rw [hN]; omega⟩, flush0_2 _, ?_⟩
    rw [xw_mem_blk]
    obtain ⟨-, -, -, -, e20, e21⟩ := blockAt0 ⟨(i 0).val / 2000, by rw [hN]; omega⟩
    intro a
    match a with
    | ⟨0, _⟩ =>
      show win0_2.index _ (0 : Fin 2) * 2000 ≤ (i 0).val ∧ (i 0).val < win0_2.index _ (0 : Fin 2) * 2000 + 2000
      rw [e20]; show (i 0).val / 2000 * 2000 ≤ (i 0).val ∧ (i 0).val < (i 0).val / 2000 * 2000 + 2000; omega
    | ⟨1, _⟩ =>
      show win0_2.index _ (1 : Fin 2) * 128 ≤ (i 1).val ∧ (i 1).val < win0_2.index _ (1 : Fin 2) * 128 + 128
      rw [e21]; omega

end Cert.KernelIdeal.Hand

end
-- ==== Proof.NormalizedProducts.lean ====
/-
  The second and third regions: a block of 2000 rows is batch-normalised with the stored statistics, clipped at zero,
  and multiplied by a whole weight matrix.

  Coordinate k of a row is sent to `max (((x - mean_k) · rsqrt (var_k + ε)) · gamma_k + beta_k) 0` (`normRelu`), the
  four statistics being [1, F] rows broadcast down the block, and the clipped row is then multiplied by the matrix into a
  zero accumulator. Entry (r, q) of the result only involves row r, so each grid point writes the restriction of one
  whole-array function, and the 25 blocks tile the result. Stated at arbitrary region-entry contents `V`.
-/
import proofs.«154364_j16518444221032_2_alg».proof.Proof.Gen.KernelIdeal.Frame
import proofs.«154364_j16518444221032_2_alg».proof.Proof.BlockProducts
import proofs.«154364_j16518444221032_2_alg».proof.Proof.NodeProducts
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- One coordinate of a row: normalised with the stored mean and variance (ε the kernel's and the reference's common
    single-precision literal), scaled, shifted, and clipped at zero. -/
def normRelu (x mean var gamma beta : EReal) : EReal :=
  max ((((x - mean) * Ideal.rsqrt (var + Ideal.ofBits .f32 0x3727C5AC#32)) * gamma) + beta) (Ideal.ofBits .f32 0x00000000#32)

/-! ## Region 1: rows of width 128, normalised, clipped and multiplied by a [128, 64] matrix -/

/-- A [1, 128] row broadcast down 2000 rows, read at (p, k), is the row at (0, k). -/
theorem rowDown128 (v : Vec Ideal S1x128 .f32) (p : Fin 2000) (k : Fin 128) :
    broadcastTo S2000x128 v broadcasts_S1x128_S2000x128 (ix2 p k) = v (ix2 0 k) :=
  broadcastTo_apply v _ (ix2 p k) (ix2 0 k) (fun a => by
    match a with
    | ⟨0, _⟩ => rfl
    | ⟨1, _⟩ => rfl)

/-- The body's arithmetic at entry (p, q): the block's row p, normalised and clipped coordinate by coordinate, against
    column q of the weight matrix. -/
theorem hw_payload (x0 : Vec Ideal S2000x128 .f32) (me va g be : Vec Ideal S1x128 .f32) (W : Vec Ideal S128x64 .f32) (p : Fin 2000) (q : Fin 64) :
    k1_pay1 x0 me va g be W (ix2 p q)
      = ∑ k : Fin 128, normRelu (x0 (ix2 p k)) (me (ix2 0 k)) (va (ix2 0 k)) (g (ix2 0 k)) (be (ix2 0 k)) * W (ix2 k q) := by
  unfold k1_pay1
  simp only [shapeCast_self]
  rw [mm_hw]
  refine Finset.sum_congr rfl fun k _ => ?_
  refine congrArg₂ (· * ·) ?_ rfl
  simp only [truncf_apply, maximumf_apply, addf_apply, mulf_apply, subf_apply]
  rw [rowDown128 me p k, rowDown128 g p k, rowDown128 be p k, rowDown128 _ p k]
  rfl

/-- Rows of a [50000, 128] array, normalised by the four [1, 128] rows and clipped, times a [128, 64] matrix. -/
def hiddenByW2 (R : S50000x128.Idx → EReal) (g be me va : S1x128.Idx → EReal) (W : S128x64.Idx → EReal) : S50000x64.Idx → EReal :=
  fun i => ∑ k : Fin 128, normRelu (R (ix2 ⟨(i 0).val, idx2_lt0 i⟩ k)) (me (ix2 0 k)) (va (ix2 0 k)) (g (ix2 0 k)) (be (ix2 0 k))
    * W (ix2 k ⟨(i 1).val, idx2_lt1 i⟩)

/-- The region's index maps over its 25 points: the row-blocked windows (0 and 6) are at block (t, 0), the others at (0, 0). -/
theorem blockAt1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of `hiddenByW2` of the operands as the region finds them. -/
theorem hw_flushed (c : Dev nD) (t : Fin cfg1.N) :
    (dat1 V c).flushed 6 t = ((cfg1.win 6).blk t).view.read (Elt Ideal)
      (hiddenByW2 (V c main_v47) (V c main_v48) (V c main_v49) (V c main_v50) (V c main_v51) (V c main_arg10)) := by
  show (cfg1.win 6).cut (grid1.coords t) ((dat1 V c).after 6 t) = _
  rw [after1_6]
  unfold out1_6
  rw [View.canon_unit_zero zero2]
  simp only [View.ld_unit_zero (S := S2000x128) zero2, View.ld_unit_zero (S := S1x128) zero2, View.ld_unit_zero (S := S128x64) zero2]
  obtain ⟨e00, e01, e10, e11, e20, e21, e30, e31, e40, e41, e50, e51, e60, e61⟩ := blockAt1 t
  funext j
  obtain ⟨p, q, rfl⟩ : ∃ (p : Fin 2000) (q : Fin 64), j = ix2 p q := ⟨j 0, j 1, eq_ix2 j⟩
  show k1_pay1 (iblk1 V c 0 t) (iblk1 V c 3 t) (iblk1 V c 4 t) (iblk1 V c 1 t) (iblk1 V c 2 t) (iblk1 V c 5 t) (ix2 p q)
    = hiddenByW2 (V c main_v47) (V c main_v48) (V c main_v49) (V c main_v50) (V c main_v51) (V c main_arg10) (((cfg1.win 6).blk t).view.emb (ix2 p q))
  rw [hw_payload]
  unfold hiddenByW2
  have hg : ∀ k : Fin 128, (iblk1 V c 1 t : Vec Ideal S1x128 .f32) (ix2 0 k) = (V c main_v48 : S1x128.Idx → EReal) (ix2 0 k) := fun k => by
    show V c main_v48 (((cfg1.win 1).blk t).view.emb (ix2 0 k)) = V c main_v48 _
    refine congrArg _ (funext fun a => Fin.ext ?_)
    match a with
    | ⟨0, _⟩ => show win1_1.index t (0 : Fin 2) * 1 + 1 * 0 = 0; rw [e10]
    | ⟨1, _⟩ => show win1_1.index t (1 : Fin 2) * 128 + 1 * k.val = k.val; rw [e11]; omega
  have hbe : ∀ k : Fin 128, (iblk1 V c 2 t : Vec Ideal S1x128 .f32) (ix2 0 k) = (V c main_v49 : S1x128.Idx → EReal) (ix2 0 k) := fun k => by
    show V c main_v49 (((cfg1.win 2).blk t).view.emb (ix2 0 k)) = V c main_v49 _
    refine congrArg _ (funext fun a => Fin.ext ?_)
    match a with
    | ⟨0, _⟩ => show win1_2.index t (0 : Fin 2) * 1 + 1 * 0 = 0; rw [e20]
    | ⟨1, _⟩ => show win1_2.index t (1 : Fin 2) * 128 + 1 * k.val = k.val; rw [e21]; omega
  have hme : ∀ k : Fin 128, (iblk1 V c 3 t : Vec Ideal S1x128 .f32) (ix2 0 k) = (V c main_v50 : S1x128.Idx → EReal) (ix2 0 k) := fun k => by
    show V c main_v50 (((cfg1.win 3).blk t).view.emb (ix2 0 k)) = V c main_v50 _
    refine congrArg _ (funext fun a => Fin.ext ?_)
    match a with
    | ⟨0, _⟩ => show win1_3.index t (0 : Fin 2) * 1 + 1 * 0 = 0; rw [e30]
    | ⟨1, _⟩ => show win1_3.index t (1 : Fin 2) * 128 + 1 * k.val = k.val; rw [e31]; omega
  have hva : ∀ k : Fin 128, (iblk1 V c 4 t : Vec Ideal S1x128 .f32) (ix2 0 k) = (V c main_v51 : S1x128.Idx → EReal) (ix2 0 k) := fun k => by
    show V c main_v51 (((cfg1.win 4).blk t).view.emb (ix2 0 k)) = V c main_v51 _
    refine congrArg _ (funext fun a => Fin.ext ?_)
    match a with
    | ⟨0, _⟩ => show win1_4.index t (0 : Fin 2) * 1 + 1 * 0 = 0; rw [e40]
    | ⟨1, _⟩ => show win1_4.index t (1 : Fin 2) * 128 + 1 * k.val = k.val; rw [e41]; omega
  refine Finset.sum_congr rfl fun k _ => ?_
  rw [hg k, hbe k, hme k, hva k]
  refine congrArg₂ (· * ·) (congrArg (fun x => normRelu x _ _ _ _) ?_) ?_
  · show V c main_v47 (((cfg1.win 0).blk t).view.emb (ix2 p k)) = V c main_v47 _
    refine congrArg _ (funext fun a => Fin.ext ?_)
    match a with
    | ⟨0, _⟩ => show win1_0.index t (0 : Fin 2) * 2000 + 1 * p.val = win1_6.index t (0 : Fin 2) * 2000 + 1 * p.val; rw [e00, e60]
    | ⟨1, _⟩ => show win1_0.index t (1 : Fin 2) * 128 + 1 * k.val = k.val; rw [e01]; omega
  · show V c main_arg10 (((cfg1.win 5).blk t).view.emb (ix2 k q)) = V c main_arg10 _
    refine congrArg _ (funext fun a => Fin.ext ?_)
    match a with
    | ⟨0, _⟩ => show win1_5.index t (0 : Fin 2) * 128 + 1 * k.val = k.val; rw [e50]; omega
    | ⟨1, _⟩ => show win1_5.index t (1 : Fin 2) * 64 + 1 * q.val = win1_6.index t (1 : Fin 2) * 64 + 1 * q.val; rw [e51, e61]

/-- An index of the result lies in point `t`'s block iff each coordinate is in the block's range on its axis. -/
theorem hw_mem_blk (t : Fin cfg1.N) (i : S50000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v52).slice (win1_6.rect t)).set ↔ _
  rw [View.set_slice_whole, Rect.mem_set_unit]
  exact Iff.rfl

/-- The result array after the region: `hiddenByW2` of the operands (row r is written by point r / 2000). -/
theorem hw_final (c : Dev nD) : (dat1 V c).arrAt 6 cfg1.N
    = hiddenByW2 (V c main_v47) (V c main_v48) (V c main_v49) (V c main_v50) (V c main_v51) (V c main_arg10) :=
  (dat1 V c).arrAt_eq_of_cover 6 _ (fun t _ => hw_flushed V c t) fun i => by
    have h0 : (i 0).val < 50000 := (i 0).isLt
    have h1 : (i 1).val < 64 := (i 1).isLt
    have hN : cfg1.N = 25 := N_1
    refine ⟨⟨(i 0).val / 2000, by rw [hN]; omega⟩, flush1_6 _, ?_⟩
    rw [hw_mem_blk]
    obtain ⟨-, -, -, -, -, -, -, -, -, -, -, -, e60, e61⟩ := blockAt1 ⟨(i 0).val / 2000, by rw [hN]; omega⟩
    intro a
    match a with
    | ⟨0, _⟩ =>
      show win1_6.index _ (0 : Fin 2) * 2000 ≤ (i 0).val ∧ (i 0).val < win1_6.index _ (0 : Fin 2) * 2000 + 2000
      rw [e60]; show (i 0).val / 2000 * 2000 ≤ (i 0).val ∧ (i 0).val < (i 0).val / 2000 * 2000 + 2000; omega
    | ⟨1, _⟩ =>
      show win1_6.index _ (1 : Fin 2) * 64 ≤ (i 1).val ∧ (i 1).val < win1_6.index _ (1 : Fin 2) * 64 + 64
      rw [e61]; omega

/-! ## Region 2: rows of width 64, normalised, clipped and multiplied by a [64, 128] matrix -/

/-- A [1, 64] row broadcast down 2000 rows, read at (p, k), is the row at (0, k). -/
theorem rowDown64 (v : Vec Ideal S1x64 .f32) (p : Fin 2000) (k : Fin 64) :
    broadcastTo S2000x64 v broadcasts_S1x64_S2000x64 (ix2 p k) = v (ix2 0 k) :=
  broadcastTo_apply v _ (ix2 p k) (ix2 0 k) (fun a => by
    match a with
    | ⟨0, _⟩ => rfl
    | ⟨1, _⟩ => rfl)

/-- The body's arithmetic at entry (p, q): the block's row p, normalised and clipped coordinate by coordinate, against
    column q of the weight matrix. -/
theorem zw_payload (x0 : Vec Ideal S2000x64 .f32) (me va g be : Vec Ideal S1x64 .f32) (W : Vec Ideal S64x128 .f32) (p : Fin 2000) (q : Fin 128) :
    k2_pay1 x0 me va g be W (ix2 p q)
      = ∑ k : Fin 64, normRelu (x0 (ix2 p k)) (me (ix2 0 k)) (va (ix2 0 k)) (g (ix2 0 k)) (be (ix2 0 k)) * W (ix2 k q) := by
  unfold k2_pay1
  simp only [shapeCast_self]
  rw [mm_zw]
  refine Finset.sum_congr rfl fun k _ => ?_
  refine congrArg₂ (· * ·) ?_ rfl
  simp only [truncf_apply, maximumf_apply, addf_apply, mulf_apply, subf_apply]
  rw [rowDown64 me p k, rowDown64 g p k, rowDown64 be p k, rowDown64 _ p k]
  rfl

/-- Rows of a [50000, 64] array, normalised by the four [1, 64] rows and clipped, times a [64, 128] matrix. -/
def embedByWcat (R : S50000x64.Idx → EReal) (g be me va : S1x64.Idx → EReal) (W : S64x128.Idx → EReal) : S50000x128.Idx → EReal :=
  fun i => ∑ k : Fin 64, normRelu (R (ix2 ⟨(i 0).val, idx2_lt0 i⟩ k)) (me (ix2 0 k)) (va (ix2 0 k)) (g (ix2 0 k)) (be (ix2 0 k))
    * W (ix2 k ⟨(i 1).val, idx2_lt1 i⟩)

/-- The region's index maps over its 25 points: the row-blocked windows (0 and 6) are at block (t, 0), the others at (0, 0). -/
theorem blockAt2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point `t` writes back is block `t` of `embedByWcat` of the operands as the region finds them. -/
theorem zw_flushed (c : Dev nD) (t : Fin cfg2.N) :
    (dat2 V c).flushed 6 t = ((cfg2.win 6).blk t).view.read (Elt Ideal)
      (embedByWcat (V c main_v72) (V c main_v76) (V c main_v77) (V c main_v78) (V c main_v79) (V c main_v75)) := by
  show (cfg2.win 6).cut (grid2.coords t) ((dat2 V c).after 6 t) = _
  rw [after2_6]
  unfold out2_6
  rw [View.canon_unit_zero zero2]
  simp only [View.ld_unit_zero (S := S2000x64) zero2, View.ld_unit_zero (S := S1x64) zero2, View.ld_unit_zero (S := S64x128) zero2]
  obtain ⟨e00, e01, e10, e11, e20, e21, e30, e31, e40, e41, e50, e51, e60, e61⟩ := blockAt2 t
  funext j
  obtain ⟨p, q, rfl⟩ : ∃ (p : Fin 2000) (q : Fin 128), j = ix2 p q := ⟨j 0, j 1, eq_ix2 j⟩
  show k2_pay1 (iblk2 V c 0 t) (iblk2 V c 3 t) (iblk2 V c 4 t) (iblk2 V c 1 t) (iblk2 V c 2 t) (iblk2 V c 5 t) (ix2 p q)
    = embedByWcat (V c main_v72) (V c main_v76) (V c main_v77) (V c main_v78) (V c main_v79) (V c main_v75) (((cfg2.win 6).blk t).view.emb (ix2 p q))
  rw [zw_payload]
  unfold embedByWcat
  have hg : ∀ k : Fin 64, (iblk2 V c 1 t : Vec Ideal S1x64 .f32) (ix2 0 k) = (V c main_v76 : S1x64.Idx → EReal) (ix2 0 k) := fun k => by
    show V c main_v76 (((cfg2.win 1).blk t).view.emb (ix2 0 k)) = V c main_v76 _
    refine congrArg _ (funext fun a => Fin.ext ?_)
    match a with
    | ⟨0, _⟩ => show win2_1.index t (0 : Fin 2) * 1 + 1 * 0 = 0; rw [e10]
    | ⟨1, _⟩ => show win2_1.index t (1 : Fin 2) * 64 + 1 * k.val = k.val; rw [e11]; omega
  have hbe : ∀ k : Fin 64, (iblk2 V c 2 t : Vec Ideal S1x64 .f32) (ix2 0 k) = (V c main_v77 : S1x64.Idx → EReal) (ix2 0 k) := fun k => by
    show V c main_v77 (((cfg2.win 2).blk t).view.emb (ix2 0 k)) = V c main_v77 _
    refine congrArg _ (funext fun a => Fin.ext ?_)
    match a with
    | ⟨0, _⟩ => show win2_2.index t (0 : Fin 2) * 1 + 1 * 0 = 0; rw [e20]
    | ⟨1, _⟩ => show win2_2.index t (1 : Fin 2) * 64 + 1 * k.val = k.val; rw [e21]; omega
  have hme : ∀ k : Fin 64, (iblk2 V c 3 t : Vec Ideal S1x64 .f32) (ix2 0 k) = (V c main_v78 : S1x64.Idx → EReal) (ix2 0 k) := fun k => by
    show V c main_v78 (((cfg2.win 3).blk t).view.emb (ix2 0 k)) = V c main_v78 _
    refine congrArg _ (funext fun a => Fin.ext ?_)
    match a with
    | ⟨0, _⟩ => show win2_3.index t (0 : Fin 2) * 1 + 1 * 0 = 0; rw [e30]
    | ⟨1, _⟩ => show win2_3.index t (1 : Fin 2) * 64 + 1 * k.val = k.val; rw [e31]; omega
  have hva : ∀ k : Fin 64, (iblk2 V c 4 t : Vec Ideal S1x64 .f32) (ix2 0 k) = (V c main_v79 : S1x64.Idx → EReal) (ix2 0 k) := fun k => by
    show V c main_v79 (((cfg2.win 4).blk t).view.emb (ix2 0 k)) = V c main_v79 _
    refine congrArg _ (funext fun a => Fin.ext ?_)
    match a with
    | ⟨0, _⟩ => show win2_4.index t (0 : Fin 2) * 1 + 1 * 0 = 0; rw [e40]
    | ⟨1, _⟩ => show win2_4.index t (1 : Fin 2) * 64 + 1 * k.val = k.val; rw [e41]; omega
  refine Finset.sum_congr rfl fun k _ => ?_
  rw [hg k, hbe k, hme k, hva k]
  refine congrArg₂ (· * ·) (congrArg (fun x => normRelu x _ _ _ _) ?_) ?_
  · show V c main_v72 (((cfg2.win 0).blk t).view.emb (ix2 p k)) = V c main_v72 _
    refine congrArg _ (funext fun a => Fin.ext ?_)
    match a with
    | ⟨0, _⟩ => show win2_0.index t (0 : Fin 2) * 2000 + 1 * p.val = win2_6.index t (0 : Fin 2) * 2000 + 1 * p.val; rw [e00, e60]
    | ⟨1, _⟩ => show win2_0.index t (1 : Fin 2) * 64 + 1 * k.val = k.val; rw [e01]; omega
  · show V c main_v75 (((cfg2.win 5).blk t).view.emb (ix2 k q)) = V c main_v75 _
    refine congrArg _ (funext fun a => Fin.ext ?_)
    match a with
    | ⟨0, _⟩ => show win2_5.index t (0 : Fin 2) * 64 + 1 * k.val = k.val; rw [e50]; omega
    | ⟨1, _⟩ => show win2_5.index t (1 : Fin 2) * 128 + 1 * q.val = win2_6.index t (1 : Fin 2) * 128 + 1 * q.val; rw [e51, e61]

/-- An index of the result lies in point `t`'s block iff each coordinate is in the block's range on its axis. -/
theorem zw_mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v80).slice (win2_6.rect t)).set ↔ _
  rw [View.set_slice_whole, Rect.mem_set_unit]
  exact Iff.rfl

/-- The result array after the region: `embedByWcat` of the operands (row r is written by point r / 2000). -/
theorem zw_final (c : Dev nD) : (dat2 V c).arrAt 6 cfg2.N
    = embedByWcat (V c main_v72) (V c main_v76) (V c main_v77) (V c main_v78) (V c main_v79) (V c main_v75) :=
  (dat2 V c).arrAt_eq_of_cover 6 _ (fun t _ => zw_flushed V c t) fun i => by
    have h0 : (i 0).val < 50000 := (i 0).isLt
    have h1 : (i 1).val < 128 := (i 1).isLt
    have hN : cfg2.N = 25 := N_2
    refine ⟨⟨(i 0).val / 2000, by rw [hN]; omega⟩, flush2_6 _, ?_⟩
    rw [zw_mem_blk]
    obtain ⟨-, -, -, -, -, -, -, -, -, -, -, -, e60, e61⟩ := blockAt2 ⟨(i 0).val / 2000, by rw [hN]; omega⟩
    intro a
    match a with
    | ⟨0, _⟩ =>
      show win2_6.index _ (0 : Fin 2) * 2000 ≤ (i 0).val ∧ (i 0).val < win2_6.index _ (0 : Fin 2) * 2000 + 2000
      rw [e60]; show (i 0).val / 2000 * 2000 ≤ (i 0).val ∧ (i 0).val < (i 0).val / 2000 * 2000 + 2000; omega
    | ⟨1, _⟩ =>
      show win2_6.index _ (1 : Fin 2) * 128 ≤ (i 1).val ∧ (i 1).val < win2_6.index _ (1 : Fin 2) * 128 + 128
      rw [e61]; omega

end Cert.KernelIdeal.Hand

end
-- ==== Proof.EdgeScores.lean ====
/-
  The last region: the score of each of the 500000 node pairs, 5000 pairs at a time.

  Point t of the 100-point grid stages rows 5000t … 5000t + 4999 of the two gathered [500000, 64] arrays, the bias row
  and the weight row of the head ([1, 64] each) and its scalar bias ([1, 1]). For pair p it adds the two gathered rows
  and the bias row, clips at zero, multiplies coordinate by coordinate by the weight row and sums the 64 products (a
  lane sum from zero), adds the scalar bias, and applies the logistic function. The result is a [5000, 1] column written
  back as rows 5000t … 5000t + 4999 of the [500000, 1] output. Entry p only involves row p of the two gathered arrays,
  so each point writes the restriction of one whole-array function, `pairScore`, and the 100 blocks tile the output.
  Stated at arbitrary region-entry contents `V`.
-/
import proofs.«154364_j16518444221032_2_alg».proof.Proof.Gen.KernelIdeal.Frame
import proofs.«154364_j16518444221032_2_alg».proof.Proof.NodeProducts
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The body's layout steps, read at an index -/

/-- The reduced index p with lane j put back is (p, j). -/
theorem lane_lift (h : S5000x64.Reduces [1] S5000) (p : Fin 5000) (j : Fin (S5000x64.size 1)) :
    h.lift (ix1 p) j = ix2 p (⟨j.val, j.isLt⟩ : Fin 64) := by
  funext c; apply Fin.ext
  fin_cases c <;> rfl

/-- A lane sum from zero over the 64 coordinates of row p. -/
theorem laneSum (src : FVec Ideal S5000x64 .f32) (p : Fin 5000) :
    multiReduction .add [1] S5000 src 0x00000000#32 reduces_S5000x64_S5000 (.inl rfl) rfl (ix1 p)
      = ∑ j : Fin 64, src (ix2 p j) :=
  (Ideal.multiReduction_add_single src 0x00000000#32 reduces_S5000x64_S5000 (.inl rfl) rfl (ix1 p)).trans
    (Finset.sum_congr rfl fun j _ => congrArg src (lane_lift _ p j))

/-- A [5000] vector laid out as a [5000, 1] column: entry (p, 0) is entry p. -/
theorem colCast (u : FVec Ideal S5000 .f32) (p : Fin 5000) :
    shapeCast S5000x1 u shapeCasts_S5000_S5000x1 (ix2 p 0) = u (ix1 p) :=
  shapeCast_apply u _ (ix2 p 0) (ix1 p) (by
    rw [Shape.rowMajor_val_one, Shape.rowMajor_val_two]
    show p.val = p.val * 1 + 0
    omega)

/-- The [1, 1] scalar broadcast down the column. -/
theorem oneDown (v : Vec Ideal S1x1 .f32) (p : Fin 5000) :
    broadcastTo S5000x1 v broadcasts_S1x1_S5000x1 (ix2 p 0) = v (ix2 0 0) :=
  broadcastTo_apply v _ (ix2 p 0) (ix2 0 0) (fun a => by
    match a with
    | ⟨0, _⟩ => rfl
    | ⟨1, _⟩ => rfl)

/-- A [1, 64] row broadcast down 5000 rows, read at (p, j), is the row at (0, j). -/
theorem pairRowDown64 (v : Vec Ideal S1x64 .f32) (p : Fin 5000) (j : Fin 64) :
    broadcastTo S5000x64 v broadcasts_S1x64_S5000x64 (ix2 p j) = v (ix2 0 j) :=
  broadcastTo_apply v _ (ix2 p j) (ix2 0 j) (fun a => by
    match a with
    | ⟨0, _⟩ => rfl
    | ⟨1, _⟩ => rfl)

/-- The body's arithmetic for pair p. -/
theorem head_payload (gs gd : Vec Ideal S5000x64 .f32) (hb hw : Vec Ideal S1x64 .f32) (b2 : Vec Ideal S1x1 .f32) (p : Fin 5000) :
    k3_pay1 gs gd hb hw b2 (ix2 p 0)
      = Ideal.logistic ((∑ j : Fin 64, max ((gs (ix2 p j) + gd (ix2 p j)) + hb (ix2 0 j)) (Ideal.ofBits .f32 0x00000000#32) * hw (ix2 0 j))
          + b2 (ix2 0 0)) := by
  unfold k3_pay1
  simp only [shapeCast_self]
  show Ideal.logistic (_ + _) = _
  rw [colCast, laneSum, oneDown]
  refine congrArg Ideal.logistic (congrArg (· + _) (Finset.sum_congr rfl fun j _ => ?_))
  simp only [mulf_apply, maximumf_apply, addf_apply]
  rw [pairRowDown64 hb p j, pairRowDown64 hw p j]
  rfl

/-! ## The whole-array function and the cover -/

/-- The score of pair r from the two gathered [500000, 64] arrays, the head's bias row, weight row and scalar bias. -/
def pairScore (gs gd : S500000x64.Idx → EReal) (hb hw : S1x64.Idx → EReal) (b2 : S1x1.Idx → EReal) : S500000x1.Idx → EReal :=
  fun i => Ideal.logistic ((∑ j : Fin 64,
      max ((gs (ix2 ⟨(i 0).val, idx2_lt0 i⟩ j) + gd (ix2 ⟨(i 0).val, idx2_lt0 i⟩ j)) + hb (ix2 0 j)) (Ideal.ofBits .f32 0x00000000#32) * hw (ix2 0 j))
    + b2 (ix2 0 0))

/-- The region's index maps over its 100 points: the row-blocked windows (0, 1 and 5) are at block (t, 0), the others at (0, 0). -/
theorem blockAt3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of `pairScore` of the operands as the region finds them. -/
theorem score_flushed (c : Dev nD) (t : Fin cfg3.N) :
    (dat3 V c).flushed 5 t = ((cfg3.win 5).blk t).view.read (Elt Ideal)
      (pairScore (V c main_v89) (V c main_v96) (V c main_v98) (V c main_v97) (V c main_v99)) := by
  show (cfg3.win 5).cut (grid3.coords t) ((dat3 V c).after 5 t) = _
  rw [after3_5]
  unfold out3_5
  rw [View.canon_unit_zero zero2]
  simp only [View.ld_unit_zero (S := S5000x64) zero2, View.ld_unit_zero (S := S1x64) zero2, View.ld_unit_zero (S := S1x1) zero2]
  obtain ⟨e00, e01, e10, e11, e20, e21, e30, e31, e40, e41, e50, e51⟩ := blockAt3 t
  funext j
  obtain ⟨p, q, rfl⟩ : ∃ (p : Fin 5000) (q : Fin 1), j = ix2 p q := ⟨j 0, j 1, eq_ix2 j⟩
  obtain rfl : q = 0 := Subsingleton.elim _ _
  show k3_pay1 (iblk3 V c 0 t) (iblk3 V c 1 t) (iblk3 V c 2 t) (iblk3 V c 3 t) (iblk3 V c 4 t) (ix2 p 0)
    = pairScore (V c main_v89) (V c main_v96) (V c main_v98) (V c main_v97) (V c main_v99) (((cfg3.win 5).blk t).view.emb (ix2 p 0))
  rw [head_payload]
  unfold pairScore
  have hhb : ∀ k : Fin 64, (iblk3 V c 2 t : Vec Ideal S1x64 .f32) (ix2 0 k) = (V c main_v98 : S1x64.Idx → EReal) (ix2 0 k) := fun k => by
    show V c main_v98 (((cfg3.win 2).blk t).view.emb (ix2 0 k)) = V c main_v98 _
    refine congrArg _ (funext fun a => Fin.ext ?_)
    match a with
    | ⟨0, _⟩ => show win3_2.index t (0 : Fin 2) * 1 + 1 * 0 = 0; rw [e20]
    | ⟨1, _⟩ => show win3_2.index t (1 : Fin 2) * 64 + 1 * k.val = k.val; rw [e21]; omega
  have hhw : ∀ k : Fin 64, (iblk3 V c 3 t : Vec Ideal S1x64 .f32) (ix2 0 k) = (V c main_v97 : S1x64.Idx → EReal) (ix2 0 k) := fun k => by
    show V c main_v97 (((cfg3.win 3).blk t).view.emb (ix2 0 k)) = V c main_v97 _
    refine congrArg _ (funext fun a => Fin.ext ?_)
    match a with
    | ⟨0, _⟩ => show win3_3.index t (0 : Fin 2) * 1 + 1 * 0 = 0; rw [e30]
    | ⟨1, _⟩ => show win3_3.index t (1 : Fin 2) * 64 + 1 * k.val = k.val; rw [e31]; omega
  have hb2 : (iblk3 V c 4 t : Vec Ideal S1x1 .f32) (ix2 0 0) = (V c main_v99 : S1x1.Idx → EReal) (ix2 0 0) := by
    show V c main_v99 (((cfg3.win 4).blk t).view.emb (ix2 0 0)) = V c main_v99 _
    refine congrArg _ (funext fun a => Fin.ext ?_)
    match a with
    | ⟨0, _⟩ => show win3_4.index t (0 : Fin 2) * 1 + 1 * 0 = 0; rw [e40]
    | ⟨1, _⟩ => show win3_4.index t (1 : Fin 2) * 1 + 1 * 0 = 0; rw [e41]
  rw [hb2]
  refine congrArg Ideal.logistic (congrArg (· + _) (Finset.sum_congr rfl fun k _ => ?_))
  rw [hhb k, hhw k]
  refine congrArg (fun x => max x _ * _) (congrArg (· + _) (congrArg₂ (· + ·) ?_ ?_))
  ·
    show V c main_v89 (((cfg3.win 0).blk t).view.emb (ix2 p k)) = V c main_v89 _
    refine congrArg _ (funext fun a => Fin.ext ?_)
    match a with
    | ⟨0, _⟩ => show win3_0.index t (0 : Fin 2) * 5000 + 1 * p.val = win3_5.index t (0 : Fin 2) * 5000 + 1 * p.val; rw [e00, e50]
    | ⟨1, _⟩ => show win3_0.index t (1 : Fin 2) * 64 + 1 * k.val = k.val; rw [e01]; omega
  ·
    show V c main_v96 (((cfg3.win 1).blk t).view.emb (ix2 p k)) = V c main_v96 _
    refine congrArg _ (funext fun a => Fin.ext ?_)
    match a with
    | ⟨0, _⟩ => show win3_1.index t (0 : Fin 2) * 5000 + 1 * p.val = win3_5.index t (0 : Fin 2) * 5000 + 1 * p.val; rw [e10, e50]
    | ⟨1, _⟩ => show win3_1.index t (1 : Fin 2) * 64 + 1 * k.val = k.val; rw [e11]; omega

/-- An index of the output lies in point `t`'s block iff each coordinate is in the block's range on its axis. -/
theorem score_mem_blk (t : Fin cfg3.N) (i : S500000x1.Idx) :
    i ∈ ((cfg3.win 5).blk t).view.set ↔ ∀ a : Fin 2, win3_5.index t a * S5000x1.size a ≤ (i a).val ∧ (i a).val < win3_5.index t a * S5000x1.size a + S5000x1.size a := by
  show i ∈ ((View.whole main_v100).slice (win3_5.rect t)).set ↔ _
  rw [View.set_slice_whole, Rect.mem_set_unit]
  exact Iff.rfl

/-- The output array after the region: `pairScore` of the operands (pair r is written by point r / 5000). -/
theorem score_final (c : Dev nD) : (dat3 V c).arrAt 5 cfg3.N
    = pairScore (V c main_v89) (V c main_v96) (V c main_v98) (V c main_v97) (V c main_v99) :=
  (dat3 V c).arrAt_eq_of_cover 5 _ (fun t _ => score_flushed V c t) fun i => by
    have h0 : (i 0).val < 500000 := (i 0).isLt
    have h1 : (i 1).val < 1 := (i 1).isLt
    have hN : cfg3.N = 100 := N_3
    refine ⟨⟨(i 0).val / 5000, by rw [hN]; omega⟩, flush3_5 _, ?_⟩
    rw [score_mem_blk]
    obtain ⟨-, -, -, -, -, -, -, -, -, -, e50, e51⟩ := blockAt3 ⟨(i 0).val / 5000, by rw [hN]; omega⟩
    intro a
    match a with
    | ⟨0, _⟩ =>
      show win3_5.index _ (0 : Fin 2) * 5000 ≤ (i 0).val ∧ (i 0).val < win3_5.index _ (0 : Fin 2) * 5000 + 5000
      rw [e50]; show (i 0).val / 5000 * 5000 ≤ (i 0).val ∧ (i 0).val < (i 0).val / 5000 * 5000 + 5000; omega
    | ⟨1, _⟩ =>
      show win3_5.index _ (1 : Fin 2) * 1 ≤ (i 1).val ∧ (i 1).val < win3_5.index _ (1 : Fin 2) * 1 + 1
      rw [e51]; omega

end Cert.KernelIdeal.Hand

end
-- ==== Proof.StageBridges.lean ====
/-
  The kernel's whole-array functions against the reference's stages, index by index.

  The reference program computes each layer as: a dense product on the host, the neighbourhood aggregation, batch
  normalisation, clipping. The kernel fuses normalisation and clipping with the NEXT product inside a region, and it
  applies the head's first matrix in node space (before the two row gathers) where the reference applies it to the
  gathered, concatenated pair. This module states, at the ideal instance and for arbitrary argument arrays:
    * a region's block product is the host's `dot_general` (a row–column sum on both sides);
    * the fused normalise–clip–multiply of the second region is the reference's normalise, clip, `dot_general`;
    * the same for the third region, up to the matrix: its output is the reference's second-layer activations `z`
      times the head's first matrix with its two halves laid side by side;
    * a row gather commutes with a map that acts on rows, so gathering rows of `z · [A | B]` gives
      `z[s] · A` and `z[d] · B`, whose sum is the concatenated pair `[z[s] | z[d]]` times the stacked matrix:
      a sum over 128 coordinates split as 64 + 64, which needs only that addition of extended reals is commutative and
      associative;
    * the kernel's logistic is the reference's `1 / (1 + exp (−x))` by definition.
-/
import proofs.«154364_j16518444221032_2_alg».proof.Proof.NodeProducts
import proofs.«154364_j16518444221032_2_alg».proof.Proof.NormalizedProducts
import proofs.«154364_j16518444221032_2_alg».proof.Proof.EdgeScores
import proofs.«154364_j16518444221032_2_alg».proof.Proof.Gen.ReferenceIdeal.Read
import Idealize.ShloMosaic.Lib.ValueLayout
import Idealize.ShloMosaic.Lib.IdealHost

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen
open Cert.ReferenceIdeal.Read

/-! ## The first product -/

/-- The block product of the first region, as a whole-array function, is the reference's `dot_general`. -/
theorem xw_eq (X : S50000x512.Idx → EReal) (W : S512x128.Idx → EReal) : rowsByW1 X W = val_main_v0 (F := Ideal) X W := by
  funext i
  rw [val_main_v0_apply]
  unfold rowsByW1
  refine Finset.sum_congr rfl fun k _ => ?_
  refine congrArg₂ (· * ·) (congrArg X (funext fun a => Fin.ext ?_)) (congrArg W (funext fun a => Fin.ext ?_))
  · match a with
    | ⟨0, _⟩ => rfl
    | ⟨1, _⟩ => rfl
  · match a with
    | ⟨0, _⟩ => rfl
    | ⟨1, _⟩ => rfl

/-! ## Layout steps between a vector and its row or column forms -/

/-- A [128] vector laid out as a [1, 128] row: entry (0, k) is entry k. -/
theorem rowCast128 (x : S128.Idx → EReal) (k : Fin 128) : shapeCast S1x128 x shapeCasts_S128_S1x128 (ix2 0 k) = x (ix1 k) :=
  shapeCast_apply x _ (ix2 0 k) (ix1 k) (by
    rw [Shape.rowMajor_val_one, Shape.rowMajor_val_two]
    show k.val = 0 * 128 + k.val
    omega)

/-- A [64] vector laid out as a [1, 64] row: entry (0, k) is entry k. -/
theorem rowCast64 (x : S64.Idx → EReal) (k : Fin 64) : shapeCast S1x64 x shapeCasts_S64_S1x64 (ix2 0 k) = x (ix1 k) :=
  shapeCast_apply x _ (ix2 0 k) (ix1 k) (by
    rw [Shape.rowMajor_val_one, Shape.rowMajor_val_two]
    show k.val = 0 * 64 + k.val
    omega)

/-- A [64, 1] column laid out as a [1, 64] row: entry (0, k) is entry (k, 0). -/
theorem colToRow64 (x : S64x1.Idx → EReal) (k : Fin 64) : shapeCast S1x64 x shapeCasts_S64x1_S1x64 (ix2 0 k) = x (ix2 k 0) :=
  shapeCast_apply x _ (ix2 0 k) (ix2 k 0) (by
    rw [Shape.rowMajor_val_two, Shape.rowMajor_val_two]
    show k.val * 1 + 0 = 0 * 64 + k.val
    omega)

/-- A one-entry vector laid out as a [1, 1] array. -/
theorem oneCast (x : S1.Idx → EReal) : shapeCast S1x1 x shapeCasts_S1_S1x1 (ix2 0 0) = x (ix1 0) :=
  shapeCast_apply x _ (ix2 0 0) (ix1 0) (by
    rw [Shape.rowMajor_val_one, Shape.rowMajor_val_two]
    rfl)

/-- A [500000, 1] column laid out as a [500000] vector: entry p is entry (p, 0). -/
theorem flatCast (y : S500000x1.Idx → EReal) (p : Fin 500000) : shapeCast S500000 y shapeCasts_S500000x1_S500000 (ix1 p) = y (ix2 p 0) :=
  shapeCast_apply y _ (ix1 p) (ix2 p 0) (by
    rw [Shape.rowMajor_val_one, Shape.rowMajor_val_two]
    show p.val * 1 + 0 = p.val
    omega)

/-! ## Normalise and clip: the reference's stages at an index -/

/-- The reference's normalised and clipped rows at an index: coordinate (r, k) is `normRelu` of the layer's entry there with
    the four statistics at k (its broadcasts of the four vectors read back to their k-th entries). -/
theorem layer1_at (x0 : S50000x512.Idx → EReal) (x1 : S2x1600000.Idx → BitVec 32) (x4 : S512x128.Idx → EReal) (x5 x6 x7 x8 x9 : S128.Idx → EReal) (J : S50000x128.Idx) :
    val_main_v63 (F := Ideal) x0 x1 x4 x5 x6 x7 x8 x9 J
      = normRelu (val_main_v47 (F := Ideal) x0 x1 x4 x5 J) (x8 (ix1 ⟨(J 1).val, idx2_lt1 J⟩)) (x9 (ix1 ⟨(J 1).val, idx2_lt1 J⟩)) (x6 (ix1 ⟨(J 1).val, idx2_lt1 J⟩)) (x7 (ix1 ⟨(J 1).val, idx2_lt1 J⟩)) := by
  have e1 : idx_main_v48 (idx_main_v49 J) = ix1 ⟨(J 1).val, idx2_lt1 J⟩ := funext fun a => Fin.ext (by match a with | ⟨0, _⟩ => rfl)
  have e2 : idx_main_v54 (idx_main_v55 J) = ix1 ⟨(J 1).val, idx2_lt1 J⟩ := funext fun a => Fin.ext (by match a with | ⟨0, _⟩ => rfl)
  have e3 : idx_main_v57 (idx_main_v58 J) = ix1 ⟨(J 1).val, idx2_lt1 J⟩ := funext fun a => Fin.ext (by match a with | ⟨0, _⟩ => rfl)
  have e4 : idx_main_v60 (idx_main_v61 J) = ix1 ⟨(J 1).val, idx2_lt1 J⟩ := funext fun a => Fin.ext (by match a with | ⟨0, _⟩ => rfl)
  rw [val_main_v63_apply, val_main_v62_apply, val_main_v59_apply, val_main_v56_apply, val_main_v50_apply, val_main_v49_apply, val_main_v48_apply, val_main_v55_apply, val_main_v54_apply, val_main_v53_apply, val_main_v52_apply, val_main_v51_apply, val_main_cst_8_apply, val_main_v58_apply, val_main_v57_apply, val_main_v61_apply, val_main_v60_apply, val_main_call0_v0_apply, val_main_call0_cst_apply,
    e1, e2, e3, e4]
  rfl

/-- The reference's normalised and clipped rows at an index: coordinate (r, k) is `normRelu` of the layer's entry there with
    the four statistics at k (its broadcasts of the four vectors read back to their k-th entries). -/
theorem layer2_at (x0 : S50000x512.Idx → EReal) (x1 : S2x1600000.Idx → BitVec 32) (x4 : S512x128.Idx → EReal) (x5 x6 x7 x8 x9 : S128.Idx → EReal) (x10 : S128x64.Idx → EReal) (x11 x12 x13 x14 x15 : S64.Idx → EReal) (J : S50000x64.Idx) :
    val_main_v127 (F := Ideal) x0 x1 x4 x5 x6 x7 x8 x9 x10 x11 x12 x13 x14 x15 J
      = normRelu (val_main_v111 (F := Ideal) x0 x1 x4 x5 x6 x7 x8 x9 x10 x11 J) (x14 (ix1 ⟨(J 1).val, idx2_lt1 J⟩)) (x15 (ix1 ⟨(J 1).val, idx2_lt1 J⟩)) (x12 (ix1 ⟨(J 1).val, idx2_lt1 J⟩)) (x13 (ix1 ⟨(J 1).val, idx2_lt1 J⟩)) := by
  have e1 : idx_main_v112 (idx_main_v113 J) = ix1 ⟨(J 1).val, idx2_lt1 J⟩ := funext fun a => Fin.ext (by match a with | ⟨0, _⟩ => rfl)
  have e2 : idx_main_v118 (idx_main_v119 J) = ix1 ⟨(J 1).val, idx2_lt1 J⟩ := funext fun a => Fin.ext (by match a with | ⟨0, _⟩ => rfl)
  have e3 : idx_main_v121 (idx_main_v122 J) = ix1 ⟨(J 1).val, idx2_lt1 J⟩ := funext fun a => Fin.ext (by match a with | ⟨0, _⟩ => rfl)
  have e4 : idx_main_v124 (idx_main_v125 J) = ix1 ⟨(J 1).val, idx2_lt1 J⟩ := funext fun a => Fin.ext (by match a with | ⟨0, _⟩ => rfl)
  rw [val_main_v127_apply, val_main_v126_apply, val_main_v123_apply, val_main_v120_apply, val_main_v114_apply, val_main_v113_apply, val_main_v112_apply, val_main_v119_apply, val_main_v118_apply, val_main_v117_apply, val_main_v116_apply, val_main_v115_apply, val_main_cst_19_apply, val_main_v122_apply, val_main_v121_apply, val_main_v125_apply, val_main_v124_apply, val_main_call1_v0_apply, val_main_call1_cst_apply,
    e1, e2, e3, e4]
  rfl

/-! ## The second and third regions against the reference -/

/-- The second region's function of the first layer's rows, the four statistics (as rows) and `W2` is the reference's
    normalise, clip, `dot_general`. -/
theorem hidden_eq (x0 : S50000x512.Idx → EReal) (x1 : S2x1600000.Idx → BitVec 32) (x4 : S512x128.Idx → EReal) (x5 x6 x7 x8 x9 : S128.Idx → EReal) (x10 : S128x64.Idx → EReal) :
    hiddenByW2 (val_main_v47 (F := Ideal) x0 x1 x4 x5) (shapeCast S1x128 x6 shapeCasts_S128_S1x128) (shapeCast S1x128 x7 shapeCasts_S128_S1x128)
        (shapeCast S1x128 x8 shapeCasts_S128_S1x128) (shapeCast S1x128 x9 shapeCasts_S128_S1x128) x10
      = val_main_v64 (F := Ideal) x0 x1 x4 x5 x6 x7 x8 x9 x10 := by
  funext i
  rw [val_main_v64_apply]
  unfold hiddenByW2
  refine Finset.sum_congr rfl fun k _ => ?_
  have el : lidx_main_v64 i k = ix2 ⟨(i 0).val, idx2_lt0 i⟩ k := funext fun a => Fin.ext (by
    match a with
    | ⟨0, _⟩ => rfl
    | ⟨1, _⟩ => rfl)
  have er : ridx_main_v64 i k = ix2 k ⟨(i 1).val, idx2_lt1 i⟩ := funext fun a => Fin.ext (by
    match a with
    | ⟨0, _⟩ => rfl
    | ⟨1, _⟩ => rfl)
  rw [el, er, rowCast128, rowCast128, rowCast128, rowCast128]
  refine congrArg₂ (· * ·) ?_ rfl
  exact (layer1_at x0 x1 x4 x5 x6 x7 x8 x9 (ix2 ⟨(i 0).val, idx2_lt0 i⟩ k)).symm

/-- The third region's function at entry (n, j): the reference's second-layer activations `z` (row n) against column j
    of whatever [64, 128] matrix the region is given. -/
theorem embed_at (x0 : S50000x512.Idx → EReal) (x1 : S2x1600000.Idx → BitVec 32) (x4 : S512x128.Idx → EReal) (x5 x6 x7 x8 x9 : S128.Idx → EReal) (x10 : S128x64.Idx → EReal) (x11 x12 x13 x14 x15 : S64.Idx → EReal)
    (Wc : S64x128.Idx → EReal) (n : Fin 50000) (j : Fin 128) :
    embedByWcat (val_main_v111 (F := Ideal) x0 x1 x4 x5 x6 x7 x8 x9 x10 x11) (shapeCast S1x64 x12 shapeCasts_S64_S1x64) (shapeCast S1x64 x13 shapeCasts_S64_S1x64)
        (shapeCast S1x64 x14 shapeCasts_S64_S1x64) (shapeCast S1x64 x15 shapeCasts_S64_S1x64) Wc (ix2 n j)
      = ∑ k : Fin 64, val_main_v127 (F := Ideal) x0 x1 x4 x5 x6 x7 x8 x9 x10 x11 x12 x13 x14 x15 (ix2 n k) * Wc (ix2 k j) := by
  unfold embedByWcat
  refine Finset.sum_congr rfl fun k _ => ?_
  rw [rowCast64, rowCast64, rowCast64, rowCast64]
  refine congrArg₂ (· * ·) ?_ rfl
  exact (layer2_at x0 x1 x4 x5 x6 x7 x8 x9 x10 x11 x12 x13 x14 x15 (ix2 n k)).symm

/-! ## Row gathers -/

/-- The dimension numbers of the two row gathers of the head: one row of a [50000, 64] array per start index. -/
abbrev rowTake : GatherDims S50000x64 S500000x1 S500000x64 := gather_S50000x64_S500000x1_S500000x64_1_0_n_n_0_1_164

theorem take_siIdx (p : Fin 500000) (j : Fin 64) (c : Fin rowTake.startIndexMap.length) :
    rowTake.siIdx (ix2 p j) c = rowTake.siIdx (ix2 p 0) c := by
  funext b; apply Fin.ext
  match b with
  | ⟨0, _⟩ => rfl
  | ⟨1, _⟩ => rfl

theorem take_row0 {w : Nat} (I : IVec S500000x1 w) (p : Fin 500000) (j : Fin 64) :
    (rowTake.operandIdx (ix2 p j) I 0).val = (rowTake.operandIdx (ix2 p 0) I 0).val := by
  show rowTake.start (ix2 p j) I 0 + rowTake.batchCoord (ix2 p j) 0 + rowTake.offCoord (ix2 p j) 0
     = rowTake.start (ix2 p 0) I 0 + rowTake.batchCoord (ix2 p 0) 0 + rowTake.offCoord (ix2 p 0) 0
  rw [rowTake.batchCoord_eq_zero _ _ (by decide), rowTake.batchCoord_eq_zero _ _ (by decide),
    rowTake.offCoord_eq_zero _ _ (by decide), rowTake.offCoord_eq_zero _ _ (by decide)]
  unfold GatherDims.start
  rw [dif_pos (show (0 : Fin S50000x64.rank) ∈ rowTake.startIndexMap by decide), dif_pos (show (0 : Fin S50000x64.rank) ∈ rowTake.startIndexMap by decide), take_siIdx]

theorem take_col {w : Nat} (I : IVec S500000x1 w) (p : Fin 500000) (j : Fin 64) :
    (rowTake.operandIdx (ix2 p j) I 1).val = j.val := by
  show rowTake.start (ix2 p j) I 1 + rowTake.batchCoord (ix2 p j) 1 + rowTake.offCoord (ix2 p j) 1 = j.val
  rw [rowTake.batchCoord_eq_zero _ _ (by decide)]
  unfold GatherDims.start GatherDims.offCoord
  rw [dif_neg (show ¬ (1 : Fin S50000x64.rank) ∈ rowTake.startIndexMap by decide), dif_pos (show (1 : Fin S50000x64.rank) ∈ rowTake.sKept by decide)]
  simp only [Nat.zero_add, Nat.add_zero]
  rfl

/-- The row of the operand that pair p reads: its start index, read signed and clamped into the operand's rows. It depends
    on the index array and on p only. -/
def takenRow {w : Nat} (I : IVec S500000x1 w) (p : Fin 500000) : Fin 50000 :=
  ⟨(rowTake.operandIdx (ix2 p 0) I 0).val, by have h := (rowTake.operandIdx (ix2 p 0) I 0).isLt; exact h⟩

/-- Row p of the gather is row `takenRow I p` of the operand, column by column. -/
theorem take_apply {α : Type} {w : Nat} (A : S50000x64.Idx → α) (I : IVec S500000x1 w) (p : Fin 500000) (j : Fin 64) :
    Host.gather rowTake A I (ix2 p j) = A (ix2 (takenRow I p) j) := by
  unfold Host.gather
  refine congrArg A (funext fun a => Fin.ext ?_)
  match a with
  | ⟨0, _⟩ => exact take_row0 I p j
  | ⟨1, _⟩ => exact take_col I p j

/-! ## The head's first matrix with its two halves side by side -/

/-- `[H[:64] | H[64:]]`: the [128, 64] matrix's upper and lower halves laid side by side as a [64, 128] matrix. -/
def sideBySide (H : S128x64.Idx → EReal) : S64x128.Idx → EReal :=
  concatenate S64x128 1 [⟨S64x64, extractStridedSlice S64x64 ![0, 0] H slices_S128x64_S64x64_0_0⟩,
    ⟨S64x64, extractStridedSlice S64x64 ![64, 0] H slices_S128x64_S64x64_64_0⟩] concatenates_S64x64_S64x64_S64x128_d1

/-- Its left half is the upper half of `H`. -/
theorem side_left (H : S128x64.Idx → EReal) (k j : Fin 64) (c : Fin 128) (hc : c.val = j.val) :
    sideBySide H (ix2 k c) = H (ix2 ⟨k.val, by omega⟩ j) := by
  unfold sideBySide
  refine (concatenate_pair_apply_left (t := S64x128) (s₁ := S64x64) (s₂ := S64x64) (1 : Fin 2) _ _ concatenates_S64x64_S64x64_S64x128_d1 (ix2 k c) rfl (ix2 k j) (fun b => by
    match b with
    | ⟨0, _⟩ => rfl
    | ⟨1, _⟩ => exact hc.symm)).trans ?_
  exact slice2_axis0_apply 0 H slices_S128x64_S64x64_0_0 k j ⟨k.val, by omega⟩ (by simp)

/-- Its right half is the lower half of `H`. -/
theorem side_right (H : S128x64.Idx → EReal) (k j : Fin 64) (c : Fin 128) (hc : c.val = 64 + j.val) :
    sideBySide H (ix2 k c) = H (ix2 ⟨64 + k.val, by omega⟩ j) := by
  unfold sideBySide
  refine (concatenate_pair_apply_right (t := S64x128) (s₁ := S64x64) (s₂ := S64x64) (1 : Fin 2) _ _ concatenates_S64x64_S64x64_S64x128_d1 (ix2 k c) rfl rfl (ix2 k j) (fun b hb => by
    match b with
    | ⟨0, _⟩ => rfl
    | ⟨1, _⟩ => exact absurd rfl hb) (by show j.val + 64 = c.val; omega)).trans ?_
  exact slice2_axis0_apply 64 H slices_S128x64_S64x64_64_0 k j ⟨64 + k.val, by omega⟩ rfl

/-! ## The node-space product and its two column halves -/

/-- What the third region leaves: the second layer's rows, normalised and clipped, times `[H[:64] | H[64:]]`. -/
def nodeSpace (x0 : S50000x512.Idx → EReal) (x1 : S2x1600000.Idx → BitVec 32) (x4 : S512x128.Idx → EReal) (x5 x6 x7 x8 x9 : S128.Idx → EReal) (x10 : S128x64.Idx → EReal) (x11 x12 x13 x14 x15 : S64.Idx → EReal) (x16 : S128x64.Idx → EReal) : S50000x128.Idx → EReal :=
  embedByWcat (val_main_v111 (F := Ideal) x0 x1 x4 x5 x6 x7 x8 x9 x10 x11) (shapeCast S1x64 x12 shapeCasts_S64_S1x64) (shapeCast S1x64 x13 shapeCasts_S64_S1x64)
    (shapeCast S1x64 x14 shapeCasts_S64_S1x64) (shapeCast S1x64 x15 shapeCasts_S64_S1x64) (sideBySide x16)

/-- Its first 64 columns: `z · H[:64]`. -/
theorem lo_at (x0 : S50000x512.Idx → EReal) (x1 : S2x1600000.Idx → BitVec 32) (x4 : S512x128.Idx → EReal) (x5 x6 x7 x8 x9 : S128.Idx → EReal) (x10 : S128x64.Idx → EReal) (x11 x12 x13 x14 x15 : S64.Idx → EReal) (x16 : S128x64.Idx → EReal) (n : Fin 50000) (j : Fin 64) :
    extractStridedSlice S50000x64 ![0, 0] (nodeSpace x0 x1 x4 x5 x6 x7 x8 x9 x10 x11 x12 x13 x14 x15 x16) slices_S50000x128_S50000x64_0_0 (ix2 n j)
      = ∑ k : Fin 64, val_main_v127 (F := Ideal) x0 x1 x4 x5 x6 x7 x8 x9 x10 x11 x12 x13 x14 x15 (ix2 n k) * x16 (ix2 ⟨k.val, by omega⟩ j) := by
  refine (slice2_axis1_apply 0 (nodeSpace x0 x1 x4 x5 x6 x7 x8 x9 x10 x11 x12 x13 x14 x15 x16) slices_S50000x128_S50000x64_0_0 n j ⟨j.val, by omega⟩ (by simp)).trans ?_
  unfold nodeSpace
  refine (embed_at x0 x1 x4 x5 x6 x7 x8 x9 x10 x11 x12 x13 x14 x15 (sideBySide x16) n ⟨j.val, by omega⟩).trans ?_
  exact Finset.sum_congr rfl fun k _ => congrArg _ (side_left x16 k j _ rfl)

/-- Its last 64 columns: `z · H[64:]`. -/
theorem hi_at (x0 : S50000x512.Idx → EReal) (x1 : S2x1600000.Idx → BitVec 32) (x4 : S512x128.Idx → EReal) (x5 x6 x7 x8 x9 : S128.Idx → EReal) (x10 : S128x64.Idx → EReal) (x11 x12 x13 x14 x15 : S64.Idx → EReal) (x16 : S128x64.Idx → EReal) (n : Fin 50000) (j : Fin 64) :
    extractStridedSlice S50000x64 ![0, 64] (nodeSpace x0 x1 x4 x5 x6 x7 x8 x9 x10 x11 x12 x13 x14 x15 x16) slices_S50000x128_S50000x64_0_64 (ix2 n j)
      = ∑ k : Fin 64, val_main_v127 (F := Ideal) x0 x1 x4 x5 x6 x7 x8 x9 x10 x11 x12 x13 x14 x15 (ix2 n k) * x16 (ix2 ⟨64 + k.val, by omega⟩ j) := by
  refine (slice2_axis1_apply 64 (nodeSpace x0 x1 x4 x5 x6 x7 x8 x9 x10 x11 x12 x13 x14 x15 x16) slices_S50000x128_S50000x64_0_64 n j ⟨64 + j.val, by omega⟩ rfl).trans ?_
  unfold nodeSpace
  refine (embed_at x0 x1 x4 x5 x6 x7 x8 x9 x10 x11 x12 x13 x14 x15 (sideBySide x16) n ⟨64 + j.val, by omega⟩).trans ?_
  exact Finset.sum_congr rfl fun k _ => congrArg _ (side_right x16 k j _ rfl)

/-! ## The reference's head, read at an index -/

/-- The reference's gather records are the kernel's (the same dimension numbers over the same shapes). -/
theorem ref_take : Cert.ReferenceIdeal.gather_S50000x64_S500000x1_S500000x64_1_0_n_n_0_1_164 = rowTake := rfl

/-- The pair product `[z[s] | z[d]] · H` at entry (p, j): the sum over the 128 coordinates of the concatenated pair splits
    into the 64 of `z[s]` against the upper half of `H` and the 64 of `z[d]` against the lower half. -/
theorem pair_at (x0 : S50000x512.Idx → EReal) (x1 : S2x1600000.Idx → BitVec 32) (x2 x3 : S500000.Idx → BitVec 32) (x4 : S512x128.Idx → EReal) (x5 x6 x7 x8 x9 : S128.Idx → EReal) (x10 : S128x64.Idx → EReal) (x11 x12 x13 x14 x15 : S64.Idx → EReal) (x16 : S128x64.Idx → EReal) (x17 : S64.Idx → EReal) (x18 : S64x1.Idx → EReal) (x19 : S1.Idx → EReal) (p : Fin 500000) (j : Fin 64) :
    val_main_v143 (F := Ideal) x0 x1 x2 x3 x4 x5 x6 x7 x8 x9 x10 x11 x12 x13 x14 x15 x16 (ix2 p j)
      = (∑ k : Fin 64, val_main_v127 (F := Ideal) x0 x1 x4 x5 x6 x7 x8 x9 x10 x11 x12 x13 x14 x15 (ix2 (takenRow (val_main_v133 (F := Ideal) x2) p) k) * x16 (ix2 ⟨k.val, by omega⟩ j))
        + ∑ k : Fin 64, val_main_v127 (F := Ideal) x0 x1 x4 x5 x6 x7 x8 x9 x10 x11 x12 x13 x14 x15 (ix2 (takenRow (val_main_v140 (F := Ideal) x3) p) k) * x16 (ix2 ⟨64 + k.val, by omega⟩ j) := by
  rw [val_main_v143_apply]
  show ∑ k : Fin (64 + 64), (val_main_v142 (F := Ideal) x0 x1 x2 x3 x4 x5 x6 x7 x8 x9 x10 x11 x12 x13 x14 x15) (lidx_main_v143 (ix2 p j) k) * x16 (ridx_main_v143 (ix2 p j) k) = _
  rw [Fin.sum_univ_add]
  refine congrArg₂ (· + ·) (Finset.sum_congr rfl fun k _ => ?_) (Finset.sum_congr rfl fun k _ => ?_)
  · refine congrArg₂ (· * ·) ?_ (congrArg x16 (funext fun a => Fin.ext (by
      match a with
      | ⟨0, _⟩ => rfl
      | ⟨1, _⟩ => rfl)))
    unfold val_main_v142
    refine (concatenate_pair_apply_left (t := Cert.ReferenceIdeal.S500000x128) (s₁ := Cert.ReferenceIdeal.S500000x64) (s₂ := Cert.ReferenceIdeal.S500000x64) (1 : Fin 2) _ _ _ (lidx_main_v143 (ix2 p j) (Fin.castAdd 64 k)) rfl (ix2 p k) (fun b => by
      match b with
      | ⟨0, _⟩ => rfl
      | ⟨1, _⟩ => rfl)).trans ?_
    unfold val_main_v134
    rw [ref_take]
    exact take_apply _ _ p k
  · refine congrArg₂ (· * ·) ?_ (congrArg x16 (funext fun a => Fin.ext (by
      match a with
      | ⟨0, _⟩ => rfl
      | ⟨1, _⟩ => rfl)))
    unfold val_main_v142
    refine (concatenate_pair_apply_right (t := Cert.ReferenceIdeal.S500000x128) (s₁ := Cert.ReferenceIdeal.S500000x64) (s₂ := Cert.ReferenceIdeal.S500000x64) (1 : Fin 2) _ _ _ (lidx_main_v143 (ix2 p j) (Fin.natAdd 64 k)) rfl rfl (ix2 p k) (fun b hb => by
      match b with
      | ⟨0, _⟩ => rfl
      | ⟨1, _⟩ => exact absurd rfl hb) (by show k.val + 64 = 64 + k.val; omega)).trans ?_
    unfold val_main_v141
    rw [ref_take]
    exact take_apply _ _ p k

/-- The reference's logit of pair p: the clipped pair product plus bias against the head's second matrix, plus its bias. -/
theorem logit_at (x0 : S50000x512.Idx → EReal) (x1 : S2x1600000.Idx → BitVec 32) (x2 x3 : S500000.Idx → BitVec 32) (x4 : S512x128.Idx → EReal) (x5 x6 x7 x8 x9 : S128.Idx → EReal) (x10 : S128x64.Idx → EReal) (x11 x12 x13 x14 x15 : S64.Idx → EReal) (x16 : S128x64.Idx → EReal) (x17 : S64.Idx → EReal) (x18 : S64x1.Idx → EReal) (x19 : S1.Idx → EReal) (p : Fin 500000) :
    val_main_v151 (F := Ideal) x0 x1 x2 x3 x4 x5 x6 x7 x8 x9 x10 x11 x12 x13 x14 x15 x16 x17 x18 x19 (ix2 p 0)
      = (∑ j : Fin 64, max (val_main_v143 (F := Ideal) x0 x1 x2 x3 x4 x5 x6 x7 x8 x9 x10 x11 x12 x13 x14 x15 x16 (ix2 p j) + x17 (ix1 j)) (Ideal.ofBits .f32 0x00000000#32) * x18 (ix2 j 0))
        + x19 (ix1 0) := by
  rw [val_main_v151_apply, val_main_v150_apply, val_main_v149_apply, val_main_v148_apply]
  refine congrArg₂ (· + ·) (Finset.sum_congr rfl fun j _ => ?_) (congrArg x19 (funext fun a => Fin.ext (by
    match a with
    | ⟨0, _⟩ => rfl)))
  have el : lidx_main_v148 (ix2 p 0) j = ix2 p j := funext fun a => Fin.ext (by
    match a with
    | ⟨0, _⟩ => rfl
    | ⟨1, _⟩ => rfl)
  have er : ridx_main_v148 (ix2 p 0) j = ix2 j 0 := funext fun a => Fin.ext (by
    match a with
    | ⟨0, _⟩ => rfl
    | ⟨1, _⟩ => rfl)
  have eb : idx_main_v144 (idx_main_v145 (ix2 p j)) = ix1 j := funext fun a => Fin.ext (by
    match a with
    | ⟨0, _⟩ => rfl)
  rw [el, er, val_main_v147_apply, val_main_call2_v0_apply, val_main_call2_cst_apply, val_main_v146_apply, val_main_v145_apply, val_main_v144_apply, eb]
  rfl

/-- The reference's `1 / (1 + exp (−x))` is the logistic function of its logit. -/
theorem sigmoid_at (x0 : S50000x512.Idx → EReal) (x1 : S2x1600000.Idx → BitVec 32) (x2 x3 : S500000.Idx → BitVec 32) (x4 : S512x128.Idx → EReal) (x5 x6 x7 x8 x9 : S128.Idx → EReal) (x10 : S128x64.Idx → EReal) (x11 x12 x13 x14 x15 : S64.Idx → EReal) (x16 : S128x64.Idx → EReal) (x17 : S64.Idx → EReal) (x18 : S64x1.Idx → EReal) (x19 : S1.Idx → EReal) (J : S500000x1.Idx) :
    val_main_v157 (F := Ideal) x0 x1 x2 x3 x4 x5 x6 x7 x8 x9 x10 x11 x12 x13 x14 x15 x16 x17 x18 x19 J = Ideal.logistic (val_main_v151 (F := Ideal) x0 x1 x2 x3 x4 x5 x6 x7 x8 x9 x10 x11 x12 x13 x14 x15 x16 x17 x18 x19 J) := by
  rw [val_main_v157_apply, val_main_v156_apply, val_main_cst_25_apply, val_main_v155_apply, val_main_v154_apply, val_main_cst_24_apply,
    val_main_v153_apply, val_main_v152_apply]
  generalize val_main_v151 (F := Ideal) x0 x1 x2 x3 x4 x5 x6 x7 x8 x9 x10 x11 x12 x13 x14 x15 x16 x17 x18 x19 J = y
  show Ideal.div (Ideal.ofBits .f32 0x3F800000#32) (Ideal.ofBits .f32 0x3F800000#32 + Ideal.exp (-y)) = Ideal.logistic y
  rw [Ideal.ofBits_one_f32]
  rfl

/-! ## The scores -/

/-- The last region's function at pair p, spelled out. -/
theorem pairScore_at (gs gd : S500000x64.Idx → EReal) (hb hw : S1x64.Idx → EReal) (b2 : S1x1.Idx → EReal) (p : Fin 500000) :
    pairScore gs gd hb hw b2 (ix2 p 0)
      = Ideal.logistic ((∑ j : Fin 64, max ((gs (ix2 p j) + gd (ix2 p j)) + hb (ix2 0 j)) (Ideal.ofBits .f32 0x00000000#32) * hw (ix2 0 j)) + b2 (ix2 0 0)) := rfl

/-- The head's bridge for any two gathered arrays whose rows are `z[s] · H[:64]` and `z[d] · H[64:]`: the last region's
    scores, flattened, are the reference's. -/
theorem score_core (x0 : S50000x512.Idx → EReal) (x1 : S2x1600000.Idx → BitVec 32) (x2 x3 : S500000.Idx → BitVec 32) (x4 : S512x128.Idx → EReal) (x5 x6 x7 x8 x9 : S128.Idx → EReal) (x10 : S128x64.Idx → EReal) (x11 x12 x13 x14 x15 : S64.Idx → EReal) (x16 : S128x64.Idx → EReal) (x17 : S64.Idx → EReal) (x18 : S64x1.Idx → EReal) (x19 : S1.Idx → EReal) (gs gd : S500000x64.Idx → EReal)
    (hs : ∀ (p : Fin 500000) (j : Fin 64), gs (ix2 p j) = ∑ k : Fin 64, val_main_v127 (F := Ideal) x0 x1 x4 x5 x6 x7 x8 x9 x10 x11 x12 x13 x14 x15 (ix2 (takenRow (val_main_v133 (F := Ideal) x2) p) k) * x16 (ix2 ⟨k.val, by omega⟩ j))
    (hd : ∀ (p : Fin 500000) (j : Fin 64), gd (ix2 p j) = ∑ k : Fin 64, val_main_v127 (F := Ideal) x0 x1 x4 x5 x6 x7 x8 x9 x10 x11 x12 x13 x14 x15 (ix2 (takenRow (val_main_v140 (F := Ideal) x3) p) k) * x16 (ix2 ⟨64 + k.val, by omega⟩ j)) :
    shapeCast S500000 (pairScore gs gd (shapeCast S1x64 x17 shapeCasts_S64_S1x64) (shapeCast S1x64 x18 shapeCasts_S64x1_S1x64) (shapeCast S1x1 x19 shapeCasts_S1_S1x1))
      shapeCasts_S500000x1_S500000
      = val_main_v158 (F := Ideal) x0 x1 x2 x3 x4 x5 x6 x7 x8 x9 x10 x11 x12 x13 x14 x15 x16 x17 x18 x19 := by
  funext i
  obtain ⟨p, rfl⟩ : ∃ p : Fin 500000, i = ix1 p := ⟨i 0, eq_ix1 i⟩
  have e158 : idx_main_v158 (ix1 p) = ix2 p 0 := funext fun a => Fin.ext (by
    match a with
    | ⟨0, _⟩ => exact Nat.div_one _
    | ⟨1, _⟩ => rfl)
  rw [flatCast, pairScore_at, val_main_v158_apply, e158, sigmoid_at, logit_at, oneCast]
  refine congrArg Ideal.logistic ?_
  refine congrArg (· + x19 (ix1 0)) ?_
  refine Finset.sum_congr rfl fun j _ => ?_
  rw [rowCast64, colToRow64, pair_at x0 x1 x2 x3 x4 x5 x6 x7 x8 x9 x10 x11 x12 x13 x14 x15 x16 x17 x18 x19 p j, hs p j, hd p j]

/-- THE BRIDGE OF THE HEAD: the kernel's scores — the last region's function of the two gathered halves of the node-space
    product, flattened — are the reference's. A row gather commutes with the product (`take_apply`, `lo_at`, `hi_at`). -/
theorem score_eq (x0 : S50000x512.Idx → EReal) (x1 : S2x1600000.Idx → BitVec 32) (x2 x3 : S500000.Idx → BitVec 32) (x4 : S512x128.Idx → EReal) (x5 x6 x7 x8 x9 : S128.Idx → EReal) (x10 : S128x64.Idx → EReal) (x11 x12 x13 x14 x15 : S64.Idx → EReal) (x16 : S128x64.Idx → EReal) (x17 : S64.Idx → EReal) (x18 : S64x1.Idx → EReal) (x19 : S1.Idx → EReal) :
    shapeCast S500000 (pairScore
        (Host.gather rowTake (extractStridedSlice S50000x64 ![0, 0] (nodeSpace x0 x1 x4 x5 x6 x7 x8 x9 x10 x11 x12 x13 x14 x15 x16) slices_S50000x128_S50000x64_0_0) (val_main_v133 (F := Ideal) x2))
        (Host.gather rowTake (extractStridedSlice S50000x64 ![0, 64] (nodeSpace x0 x1 x4 x5 x6 x7 x8 x9 x10 x11 x12 x13 x14 x15 x16) slices_S50000x128_S50000x64_0_64) (val_main_v140 (F := Ideal) x3))
        (shapeCast S1x64 x17 shapeCasts_S64_S1x64) (shapeCast S1x64 x18 shapeCasts_S64x1_S1x64) (shapeCast S1x1 x19 shapeCasts_S1_S1x1))
      shapeCasts_S500000x1_S500000
      = val_main_v158 (F := Ideal) x0 x1 x2 x3 x4 x5 x6 x7 x8 x9 x10 x11 x12 x13 x14 x15 x16 x17 x18 x19 :=
  score_core x0 x1 x2 x3 x4 x5 x6 x7 x8 x9 x10 x11 x12 x13 x14 x15 x16 x17 x18 x19 _ _
    (fun p j => (take_apply _ _ p j).trans (lo_at x0 x1 x4 x5 x6 x7 x8 x9 x10 x11 x12 x13 x14 x15 x16 _ j))
    (fun p j => (take_apply _ _ p j).trans (hi_at x0 x1 x4 x5 x6 x7 x8 x9 x10 x11 x12 x13 x14 x15 x16 _ j))

end Cert.KernelIdeal.Hand

end
-- ==== Proof.Boundaries.lean ====
/-
  What each segment boundary of the idealized kernel holds, as the reference's stages of the argument arrays.

  The kernel's @main alternates stretches of host operations with its four regions. The generated frame module names the
  buffer contents at the nine boundaries (`W1` … `W9`). Here each buffer that a later stretch or region reads is
  identified, at the boundary where it is read, with a term of the launch memory's argument arrays:
    * a host stretch's result is opened operation by operation; the kernel's host operations are the reference's own
      (the same gathers, scatter-adds, broadcasts, selects on the same index arrays), so the result is the reference's
      stage by unfolding — except that the kernel multiplies a gathered row by its edge weight on the other side;
    * a region's output array is its whole-array function of its operands (the region modules), which the bridges module
      identifies with the reference's stages;
    * a buffer nothing writes in between is carried along unchanged.
  The chain ends at the result buffer after the last stretch: the reference's last stage of the arguments.
-/
import proofs.«154364_j16518444221032_2_alg».proof.Proof.StageBridges

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen
open Cert.ReferenceIdeal.Read

variable (m : (ℓ : Loc nD τ sig) → Buf (Elt Ideal) ℓ) (ρ : Dev nD → PrngReg)

/-- The product of two arrays of extended reals, entry by entry, commutes. -/
theorem mulf_comm_vec {s : Shape} (a b : FVec Ideal s .f32) : mulf a b = mulf b a :=
  funext fun i => mul_comm (a i) (b i)

/-! ## What is carried along unchanged, and the first stretch's index and weight arrays -/

set_option maxHeartbeats 4000000 in
/-- After the first host stretch: the source end of every edge, the reference's own stage of the edge list. -/
theorem at1_v1 (c : Dev nD) : W1 m ρ c (Proc.devRef .tc main_v1) = val_main_v2 (F := Ideal) (m ((c : Thread nD τ).loc main_arg1)) := by
  show StableHlo.after hostOps0 (W0 m ρ c) (Proc.devRef .tc main_v1) = _
  after_results_simp
  rfl
set_option maxHeartbeats 4000000 in
/-- After the first host stretch: the target end of every edge, the reference's own stage of the edge list. -/
theorem at1_v3 (c : Dev nD) : W1 m ρ c (Proc.devRef .tc main_v3) = val_main_v4 (F := Ideal) (m ((c : Thread nD τ).loc main_arg1)) := by
  show StableHlo.after hostOps0 (W0 m ρ c) (Proc.devRef .tc main_v3) = _
  after_results_simp
  rfl
set_option maxHeartbeats 4000000 in
/-- After the first host stretch: the symmetric normalisation of every edge, the reference's own stage of the edge list. -/
theorem at1_v25 (c : Dev nD) : W1 m ρ c (Proc.devRef .tc main_v25) = val_main_v26 (F := Ideal) (m ((c : Thread nD τ).loc main_arg1)) := by
  show StableHlo.after hostOps0 (W0 m ρ c) (Proc.devRef .tc main_v25) = _
  after_results_simp
  rfl
set_option maxHeartbeats 4000000 in
/-- After the first host stretch: the self-loop weight of every node, the reference's own stage of the edge list. -/
theorem at1_v26 (c : Dev nD) : W1 m ρ c (Proc.devRef .tc main_v26) = val_main_v40 (F := Ideal) (m ((c : Thread nD τ).loc main_arg1)) := by
  show StableHlo.after hostOps0 (W0 m ρ c) (Proc.devRef .tc main_v26) = _
  after_results_simp
  rfl
set_option maxHeartbeats 8000000 in
/-- Argument 0 is still as launched at boundary 1: nothing before it writes the buffer. -/
theorem at1_arg0 (c : Dev nD) : W1 m ρ c (Proc.devRef .tc main_arg0) = (m ((c : Thread nD τ).loc main_arg0)) := by
  show StableHlo.after hostOps0 (W0 m ρ c) (Proc.devRef .tc main_arg0) = _
  after_results_simp
set_option maxHeartbeats 8000000 in
/-- Argument 4 is still as launched at boundary 1: nothing before it writes the buffer. -/
theorem at1_arg4 (c : Dev nD) : W1 m ρ c (Proc.devRef .tc main_arg4) = (m ((c : Thread nD τ).loc main_arg4)) := by
  show StableHlo.after hostOps0 (W0 m ρ c) (Proc.devRef .tc main_arg4) = _
  after_results_simp
set_option maxHeartbeats 8000000 in
/-- Argument 5 is still as launched at boundary 2: nothing before it writes the buffer. -/
theorem at2_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp
set_option maxHeartbeats 8000000 in
/-- Argument 6 is still as launched at boundary 2: nothing before it writes the buffer. -/
theorem at2_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp
set_option maxHeartbeats 8000000 in
/-- Argument 7 is still as launched at boundary 2: nothing before it writes the buffer. -/
theorem at2_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results_simp
set_option maxHeartbeats 8000000 in
/-- Argument 8 is still as launched at boundary 2: nothing before it writes the buffer. -/
theorem at2_arg8 (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results_simp
set_option maxHeartbeats 8000000 in
/-- Argument 9 is still as launched at boundary 2: nothing before it writes the buffer. -/
theorem at2_arg9 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results_simp
set_option maxHeartbeats 8000000 in
/-- Argument 10 is still as launched at boundary 3: nothing before it writes the buffer. -/
theorem at3_arg10 (c : Dev nD) : W3 m ρ c (Proc.devRef .tc main_arg10) = (m ((c : Thread nD τ).loc main_arg10)) := by
  show StableHlo.after hostOps1 (W2 m ρ c) (Proc.devRef .tc main_arg10) = _
  after_results_simp
  rw [W2_of_ne m ρ c main_arg10 (by decide)]
  show StableHlo.after hostOps0 (W0 m ρ c) (Proc.devRef .tc main_arg10) = _
  after_results_simp
set_option maxHeartbeats 8000000 in
/-- Argument 11 is still as launched at boundary 4: nothing before it writes the buffer. -/
theorem at4_arg11 (c : Dev nD) : W4 m ρ c (Proc.devRef .tc main_arg11) = (m ((c : Thread nD τ).loc main_arg11)) := by
  rw [W4_of_ne m ρ c main_arg11 (by decide)]
  show StableHlo.after hostOps1 (W2 m ρ c) (Proc.devRef .tc main_arg11) = _
  after_results_simp
  rw [W2_of_ne m ρ c main_arg11 (by decide)]
  show StableHlo.after hostOps0 (W0 m ρ c) (Proc.devRef .tc main_arg11) = _
  after_results_simp
set_option maxHeartbeats 8000000 in
/-- Argument 12 is still as launched at boundary 4: nothing before it writes the buffer. -/
theorem at4_arg12 (c : Dev nD) : W4 m ρ c (Proc.devRef .tc main_arg12) = (m ((c : Thread nD τ).loc main_arg12)) := by
  rw [W4_of_ne m ρ c main_arg12 (by decide)]
  show StableHlo.after hostOps1 (W2 m ρ c) (Proc.devRef .tc main_arg12) = _
  after_results_simp
  rw [W2_of_ne m ρ c main_arg12 (by decide)]
  show StableHlo.after hostOps0 (W0 m ρ c) (Proc.devRef .tc main_arg12) = _
  after_results_simp
set_option maxHeartbeats 8000000 in
/-- Argument 13 is still as launched at boundary 4: nothing before it writes the buffer. -/
theorem at4_arg13 (c : Dev nD) : W4 m ρ c (Proc.devRef .tc main_arg13) = (m ((c : Thread nD τ).loc main_arg13)) := by
  rw [W4_of_ne m ρ c main_arg13 (by decide)]
  show StableHlo.after hostOps1 (W2 m ρ c) (Proc.devRef .tc main_arg13) = _
  after_results_simp
  rw [W2_of_ne m ρ c main_arg13 (by decide)]
  show StableHlo.after hostOps0 (W0 m ρ c) (Proc.devRef .tc main_arg13) = _
  after_results_simp
set_option maxHeartbeats 8000000 in
/-- Argument 14 is still as launched at boundary 4: nothing before it writes the buffer. -/
theorem at4_arg14 (c : Dev nD) : W4 m ρ c (Proc.devRef .tc main_arg14) = (m ((c : Thread nD τ).loc main_arg14)) := by
  rw [W4_of_ne m ρ c main_arg14 (by decide)]
  show StableHlo.after hostOps1 (W2 m ρ c) (Proc.devRef .tc main_arg14) = _
  after_results_simp
  rw [W2_of_ne m ρ c main_arg14 (by decide)]
  show StableHlo.after hostOps0 (W0 m ρ c) (Proc.devRef .tc main_arg14) = _
  after_results_simp
set_option maxHeartbeats 8000000 in
/-- Argument 15 is still as launched at boundary 4: nothing before it writes the buffer. -/
theorem at4_arg15 (c : Dev nD) : W4 m ρ c (Proc.devRef .tc main_arg15) = (m ((c : Thread nD τ).loc main_arg15)) := by
  rw [W4_of_ne m ρ c main_arg15 (by decide)]
  show StableHlo.after hostOps1 (W2 m ρ c) (Proc.devRef .tc main_arg15) = _
  after_results_simp
  rw [W2_of_ne m ρ c main_arg15 (by decide)]
  show StableHlo.after hostOps0 (W0 m ρ c) (Proc.devRef .tc main_arg15) = _
  after_results_simp
set_option maxHeartbeats 8000000 in
/-- Argument 16 is still as launched at boundary 4: nothing before it writes the buffer. -/
theorem at4_arg16 (c : Dev nD) : W4 m ρ c (Proc.devRef .tc main_arg16) = (m ((c : Thread nD τ).loc main_arg16)) := by
  rw [W4_of_ne m ρ c main_arg16 (by decide)]
  show StableHlo.after hostOps1 (W2 m ρ c) (Proc.devRef .tc main_arg16) = _
  after_results_simp
  rw [W2_of_ne m ρ c main_arg16 (by decide)]
  show StableHlo.after hostOps0 (W0 m ρ c) (Proc.devRef .tc main_arg16) = _
  after_results_simp
set_option maxHeartbeats 8000000 in
/-- Argument 2 is still as launched at boundary 6: nothing before it writes the buffer. -/
theorem at6_arg2 (c : Dev nD) : W6 m ρ c (Proc.devRef .tc main_arg2) = (m ((c : Thread nD τ).loc main_arg2)) := by
  rw [W6_of_ne m ρ c main_arg2 (by decide)]
  show StableHlo.after hostOps2 (W4 m ρ c) (Proc.devRef .tc main_arg2) = _
  after_results_simp
  rw [W4_of_ne m ρ c main_arg2 (by decide)]
  show StableHlo.after hostOps1 (W2 m ρ c) (Proc.devRef .tc main_arg2) = _
  after_results_simp
  rw [W2_of_ne m ρ c main_arg2 (by decide)]
  show StableHlo.after hostOps0 (W0 m ρ c) (Proc.devRef .tc main_arg2) = _
  after_results_simp
set_option maxHeartbeats 8000000 in
/-- Argument 3 is still as launched at boundary 6: nothing before it writes the buffer. -/
theorem at6_arg3 (c : Dev nD) : W6 m ρ c (Proc.devRef .tc main_arg3) = (m ((c : Thread nD τ).loc main_arg3)) := by
  rw [W6_of_ne m ρ c main_arg3 (by decide)]
  show StableHlo.after hostOps2 (W4 m ρ c) (Proc.devRef .tc main_arg3) = _
  after_results_simp
  rw [W4_of_ne m ρ c main_arg3 (by decide)]
  show StableHlo.after hostOps1 (W2 m ρ c) (Proc.devRef .tc main_arg3) = _
  after_results_simp
  rw [W2_of_ne m ρ c main_arg3 (by decide)]
  show StableHlo.after hostOps0 (W0 m ρ c) (Proc.devRef .tc main_arg3) = _
  after_results_simp
set_option maxHeartbeats 8000000 in
/-- Argument 17 is still as launched at boundary 6: nothing before it writes the buffer. -/
theorem at6_arg17 (c : Dev nD) : W6 m ρ c (Proc.devRef .tc main_arg17) = (m ((c : Thread nD τ).loc main_arg17)) := by
  rw [W6_of_ne m ρ c main_arg17 (by decide)]
  show StableHlo.after hostOps2 (W4 m ρ c) (Proc.devRef .tc main_arg17) = _
  after_results_simp
  rw [W4_of_ne m ρ c main_arg17 (by decide)]
  show StableHlo.after hostOps1 (W2 m ρ c) (Proc.devRef .tc main_arg17) = _
  after_results_simp
  rw [W2_of_ne m ρ c main_arg17 (by decide)]
  show StableHlo.after hostOps0 (W0 m ρ c) (Proc.devRef .tc main_arg17) = _
  after_results_simp
set_option maxHeartbeats 8000000 in
/-- Argument 18 is still as launched at boundary 6: nothing before it writes the buffer. -/
theorem at6_arg18 (c : Dev nD) : W6 m ρ c (Proc.devRef .tc main_arg18) = (m ((c : Thread nD τ).loc main_arg18)) := by
  rw [W6_of_ne m ρ c main_arg18 (by decide)]
  show StableHlo.after hostOps2 (W4 m ρ c) (Proc.devRef .tc main_arg18) = _
  after_results_simp
  rw [W4_of_ne m ρ c main_arg18 (by decide)]
  show StableHlo.after hostOps1 (W2 m ρ c) (Proc.devRef .tc main_arg18) = _
  after_results_simp
  rw [W2_of_ne m ρ c main_arg18 (by decide)]
  show StableHlo.after hostOps0 (W0 m ρ c) (Proc.devRef .tc main_arg18) = _
  after_results_simp
set_option maxHeartbeats 8000000 in
/-- Argument 19 is still as launched at boundary 6: nothing before it writes the buffer. -/
theorem at6_arg19 (c : Dev nD) : W6 m ρ c (Proc.devRef .tc main_arg19) = (m ((c : Thread nD τ).loc main_arg19)) := by
  rw [W6_of_ne m ρ c main_arg19 (by decide)]
  show StableHlo.after hostOps2 (W4 m ρ c) (Proc.devRef .tc main_arg19) = _
  after_results_simp
  rw [W4_of_ne m ρ c main_arg19 (by decide)]
  show StableHlo.after hostOps1 (W2 m ρ c) (Proc.devRef .tc main_arg19) = _
  after_results_simp
  rw [W2_of_ne m ρ c main_arg19 (by decide)]
  show StableHlo.after hostOps0 (W0 m ρ c) (Proc.devRef .tc main_arg19) = _
  after_results_simp
set_option maxHeartbeats 8000000 in
/-- At boundary 2: the source end of every edge, untouched since the first stretch. -/
theorem at2_v1 (c : Dev nD) : W2 m ρ c (Proc.devRef .tc main_v1) = val_main_v2 (F := Ideal) (m ((c : Thread nD τ).loc main_arg1)) := by
  rw [W2_of_ne m ρ c main_v1 (by decide)]
  exact at1_v1 m ρ c
set_option maxHeartbeats 8000000 in
/-- At boundary 2: the target end of every edge, untouched since the first stretch. -/
theorem at2_v3 (c : Dev nD) : W2 m ρ c (Proc.devRef .tc main_v3) = val_main_v4 (F := Ideal) (m ((c : Thread nD τ).loc main_arg1)) := by
  rw [W2_of_ne m ρ c main_v3 (by decide)]
  exact at1_v3 m ρ c
set_option maxHeartbeats 8000000 in
/-- At boundary 2: the symmetric normalisation of every edge, untouched since the first stretch. -/
theorem at2_v25 (c : Dev nD) : W2 m ρ c (Proc.devRef .tc main_v25) = val_main_v26 (F := Ideal) (m ((c : Thread nD τ).loc main_arg1)) := by
  rw [W2_of_ne m ρ c main_v25 (by decide)]
  exact at1_v25 m ρ c
set_option maxHeartbeats 8000000 in
/-- At boundary 2: the self-loop weight of every node, untouched since the first stretch. -/
theorem at2_v26 (c : Dev nD) : W2 m ρ c (Proc.devRef .tc main_v26) = val_main_v40 (F := Ideal) (m ((c : Thread nD τ).loc main_arg1)) := by
  rw [W2_of_ne m ρ c main_v26 (by decide)]
  exact at1_v26 m ρ c
set_option maxHeartbeats 8000000 in
/-- At boundary 4: the source end of every edge, untouched since the first stretch. -/
theorem at4_v1 (c : Dev nD) : W4 m ρ c (Proc.devRef .tc main_v1) = val_main_v2 (F := Ideal) (m ((c : Thread nD τ).loc main_arg1)) := by
  rw [W4_of_ne m ρ c main_v1 (by decide)]
  show StableHlo.after hostOps1 (W2 m ρ c) (Proc.devRef .tc main_v1) = _
  after_results_simp
  rw [W2_of_ne m ρ c main_v1 (by decide)]
  exact at1_v1 m ρ c
set_option maxHeartbeats 8000000 in
/-- At boundary 4: the target end of every edge, untouched since the first stretch. -/
theorem at4_v3 (c : Dev nD) : W4 m ρ c (Proc.devRef .tc main_v3) = val_main_v4 (F := Ideal) (m ((c : Thread nD τ).loc main_arg1)) := by
  rw [W4_of_ne m ρ c main_v3 (by decide)]
  show StableHlo.after hostOps1 (W2 m ρ c) (Proc.devRef .tc main_v3) = _
  after_results_simp
  rw [W2_of_ne m ρ c main_v3 (by decide)]
  exact at1_v3 m ρ c
set_option maxHeartbeats 8000000 in
/-- At boundary 4: the symmetric normalisation of every edge, untouched since the first stretch. -/
theorem at4_v25 (c : Dev nD) : W4 m ρ c (Proc.devRef .tc main_v25) = val_main_v26 (F := Ideal) (m ((c : Thread nD τ).loc main_arg1)) := by
  rw [W4_of_ne m ρ c main_v25 (by decide)]
  show StableHlo.after hostOps1 (W2 m ρ c) (Proc.devRef .tc main_v25) = _
  after_results_simp
  rw [W2_of_ne m ρ c main_v25 (by decide)]
  exact at1_v25 m ρ c
set_option maxHeartbeats 8000000 in
/-- At boundary 4: the self-loop weight of every node, untouched since the first stretch. -/
theorem at4_v26 (c : Dev nD) : W4 m ρ c (Proc.devRef .tc main_v26) = val_main_v40 (F := Ideal) (m ((c : Thread nD τ).loc main_arg1)) := by
  rw [W4_of_ne m ρ c main_v26 (by decide)]
  show StableHlo.after hostOps1 (W2 m ρ c) (Proc.devRef .tc main_v26) = _
  after_results_simp
  rw [W2_of_ne m ρ c main_v26 (by decide)]
  exact at1_v26 m ρ c

/-! ## Region 0 and the first aggregation -/

/-- The first region's output is the reference's first `dot_general`. -/
theorem at2_v27 (c : Dev nD) : W2 m ρ c (Proc.devRef .tc main_v27) = val_main_v0 (F := Ideal) (m ((c : Thread nD τ).loc main_arg0)) (m ((c : Thread nD τ).loc main_arg4)) :=
  (W2_arr m ρ c 2).trans ((xw_final (V1 m ρ) c).trans (by
    rw [show V1 m ρ c main_arg0 = _ from at1_arg0 m ρ c, show V1 m ρ c main_arg4 = _ from at1_arg4 m ρ c]
    exact xw_eq _ _))

set_option maxHeartbeats 8000000 in
/-- The first layer before normalisation: the kernel scales each gathered row by its edge weight on the right, the reference on the left; the product of extended reals commutes, and every other operation is the reference's own. -/
theorem at3_v47 (c : Dev nD) : W3 m ρ c (Proc.devRef .tc main_v47) = val_main_v47 (F := Ideal) (m ((c : Thread nD τ).loc main_arg0)) (m ((c : Thread nD τ).loc main_arg1)) (m ((c : Thread nD τ).loc main_arg4)) (m ((c : Thread nD τ).loc main_arg5)) := by
  show StableHlo.after hostOps1 (W2 m ρ c) (Proc.devRef .tc main_v47) = _
  after_results_simp
  rw [at2_v27 m ρ c, at2_v1 m ρ c, at2_v3 m ρ c, at2_v25 m ρ c, at2_v26 m ρ c, at2_arg5 m ρ c]
  rw [mulf_comm_vec (Host.gather gather_S50000x128_S1600000x1_S1600000x128_1_0_n_n_0_1_1128 _ _)]
  rfl

set_option maxHeartbeats 8000000 in
/-- A first-layer statistic laid out as a row for the second region. -/
theorem at3_v48 (c : Dev nD) : W3 m ρ c (Proc.devRef .tc main_v48) = shapeCast S1x128 (m ((c : Thread nD τ).loc main_arg6)) shapeCasts_S128_S1x128 := by
  show StableHlo.after hostOps1 (W2 m ρ c) (Proc.devRef .tc main_v48) = _
  after_results_simp
  rw [at2_arg6 m ρ c]
  rfl
set_option maxHeartbeats 8000000 in
/-- A first-layer statistic laid out as a row for the second region. -/
theorem at3_v49 (c : Dev nD) : W3 m ρ c (Proc.devRef .tc main_v49) = shapeCast S1x128 (m ((c : Thread nD τ).loc main_arg7)) shapeCasts_S128_S1x128 := by
  show StableHlo.after hostOps1 (W2 m ρ c) (Proc.devRef .tc main_v49) = _
  after_results_simp
  rw [at2_arg7 m ρ c]
  rfl
set_option maxHeartbeats 8000000 in
/-- A first-layer statistic laid out as a row for the second region. -/
theorem at3_v50 (c : Dev nD) : W3 m ρ c (Proc.devRef .tc main_v50) = shapeCast S1x128 (m ((c : Thread nD τ).loc main_arg8)) shapeCasts_S128_S1x128 := by
  show StableHlo.after hostOps1 (W2 m ρ c) (Proc.devRef .tc main_v50) = _
  after_results_simp
  rw [at2_arg8 m ρ c]
  rfl
set_option maxHeartbeats 8000000 in
/-- A first-layer statistic laid out as a row for the second region. -/
theorem at3_v51 (c : Dev nD) : W3 m ρ c (Proc.devRef .tc main_v51) = shapeCast S1x128 (m ((c : Thread nD τ).loc main_arg9)) shapeCasts_S128_S1x128 := by
  show StableHlo.after hostOps1 (W2 m ρ c) (Proc.devRef .tc main_v51) = _
  after_results_simp
  rw [at2_arg9 m ρ c]
  rfl

/-! ## Region 1 and the second aggregation -/

/-- The second region's output is the reference's second `dot_general` (of the normalised, clipped first layer). -/
theorem at4_v52 (c : Dev nD) : W4 m ρ c (Proc.devRef .tc main_v52) = val_main_v64 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_arr m ρ c 6).trans ((hw_final (V3 m ρ) c).trans (by
    rw [show V3 m ρ c main_v47 = _ from at3_v47 m ρ c,
      show V3 m ρ c main_v48 = _ from at3_v48 m ρ c,
      show V3 m ρ c main_v49 = _ from at3_v49 m ρ c,
      show V3 m ρ c main_v50 = _ from at3_v50 m ρ c,
      show V3 m ρ c main_v51 = _ from at3_v51 m ρ c,
      show V3 m ρ c main_arg10 = _ from at3_arg10 m ρ c]
    exact hidden_eq _ _ _ _ _ _ _ _ _))

set_option maxHeartbeats 8000000 in
/-- The second layer before normalisation. The kernel reuses the edge weights of the first stretch where the reference recomputes them from the edge list: the same term. -/
theorem at5_v72 (c : Dev nD) : W5 m ρ c (Proc.devRef .tc main_v72) = val_main_v111 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps2 (W4 m ρ c) (Proc.devRef .tc main_v72) = _
  after_results_simp
  rw [at4_v52 m ρ c, at4_v1 m ρ c, at4_v3 m ρ c, at4_v25 m ρ c, at4_v26 m ρ c, at4_arg11 m ρ c]
  rw [mulf_comm_vec (Host.gather gather_S50000x64_S1600000x1_S1600000x64_1_0_n_n_0_1_164 _ _)]
  rfl

set_option maxHeartbeats 8000000 in
/-- The head's first matrix with its halves side by side. -/
theorem at5_v75 (c : Dev nD) : W5 m ρ c (Proc.devRef .tc main_v75) = sideBySide (m ((c : Thread nD τ).loc main_arg16)) := by
  show StableHlo.after hostOps2 (W4 m ρ c) (Proc.devRef .tc main_v75) = _
  after_results
  rw [at4_arg16 m ρ c]
  rfl

set_option maxHeartbeats 8000000 in
/-- A second-layer statistic laid out as a row for the third region. -/
theorem at5_v76 (c : Dev nD) : W5 m ρ c (Proc.devRef .tc main_v76) = shapeCast S1x64 (m ((c : Thread nD τ).loc main_arg12)) shapeCasts_S64_S1x64 := by
  show StableHlo.after hostOps2 (W4 m ρ c) (Proc.devRef .tc main_v76) = _
  after_results_simp
  rw [at4_arg12 m ρ c]
  rfl
set_option maxHeartbeats 8000000 in
/-- A second-layer statistic laid out as a row for the third region. -/
theorem at5_v77 (c : Dev nD) : W5 m ρ c (Proc.devRef .tc main_v77) = shapeCast S1x64 (m ((c : Thread nD τ).loc main_arg13)) shapeCasts_S64_S1x64 := by
  show StableHlo.after hostOps2 (W4 m ρ c) (Proc.devRef .tc main_v77) = _
  after_results_simp
  rw [at4_arg13 m ρ c]
  rfl
set_option maxHeartbeats 8000000 in
/-- A second-layer statistic laid out as a row for the third region. -/
theorem at5_v78 (c : Dev nD) : W5 m ρ c (Proc.devRef .tc main_v78) = shapeCast S1x64 (m ((c : Thread nD τ).loc main_arg14)) shapeCasts_S64_S1x64 := by
  show StableHlo.after hostOps2 (W4 m ρ c) (Proc.devRef .tc main_v78) = _
  after_results_simp
  rw [at4_arg14 m ρ c]
  rfl
set_option maxHeartbeats 8000000 in
/-- A second-layer statistic laid out as a row for the third region. -/
theorem at5_v79 (c : Dev nD) : W5 m ρ c (Proc.devRef .tc main_v79) = shapeCast S1x64 (m ((c : Thread nD τ).loc main_arg15)) shapeCasts_S64_S1x64 := by
  show StableHlo.after hostOps2 (W4 m ρ c) (Proc.devRef .tc main_v79) = _
  after_results_simp
  rw [at4_arg15 m ρ c]
  rfl

/-! ## Region 2, the two row gathers, region 3 -/

/-- The third region's output is the node-space product. -/
theorem at6_v80 (c : Dev nD) : W6 m ρ c (Proc.devRef .tc main_v80) = nodeSpace (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (W6_arr m ρ c 6).trans ((zw_final (V5 m ρ) c).trans (by
    rw [show V5 m ρ c main_v72 = _ from at5_v72 m ρ c,
      show V5 m ρ c main_v76 = _ from at5_v76 m ρ c,
      show V5 m ρ c main_v77 = _ from at5_v77 m ρ c,
      show V5 m ρ c main_v78 = _ from at5_v78 m ρ c,
      show V5 m ρ c main_v79 = _ from at5_v79 m ρ c,
      show V5 m ρ c main_v75 = _ from at5_v75 m ρ c]
    rfl))

set_option maxHeartbeats 8000000 in
/-- The rows of the first 64 columns of the node-space product at the pairs' first nodes. -/
theorem at7_v89 (c : Dev nD) : W7 m ρ c (Proc.devRef .tc main_v89) = (Host.gather rowTake (extractStridedSlice S50000x64 ![0, 0] (nodeSpace (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) slices_S50000x128_S50000x64_0_0) (val_main_v133 (F := Ideal) (m ((c : Thread nD τ).loc main_arg2)))) := by
  show StableHlo.after hostOps3 (W6 m ρ c) (Proc.devRef .tc main_v89) = _
  after_results_simp
  rw [at6_v80 m ρ c, at6_arg2 m ρ c]
  rfl

set_option maxHeartbeats 8000000 in
/-- The rows of the last 64 columns of the node-space product at the pairs' second nodes. -/
theorem at7_v96 (c : Dev nD) : W7 m ρ c (Proc.devRef .tc main_v96) = (Host.gather rowTake (extractStridedSlice S50000x64 ![0, 64] (nodeSpace (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) slices_S50000x128_S50000x64_0_64) (val_main_v140 (F := Ideal) (m ((c : Thread nD τ).loc main_arg3)))) := by
  show StableHlo.after hostOps3 (W6 m ρ c) (Proc.devRef .tc main_v96) = _
  after_results_simp
  rw [at6_v80 m ρ c, at6_arg3 m ρ c]
  rfl

set_option maxHeartbeats 8000000 in
/-- The head's first bias as a row. -/
theorem at7_v98 (c : Dev nD) : W7 m ρ c (Proc.devRef .tc main_v98) = shapeCast S1x64 (m ((c : Thread nD τ).loc main_arg17)) shapeCasts_S64_S1x64 := by
  show StableHlo.after hostOps3 (W6 m ρ c) (Proc.devRef .tc main_v98) = _
  after_results_simp
  rw [at6_arg17 m ρ c]
  rfl

set_option maxHeartbeats 8000000 in
/-- The head's second matrix, a column, as a row. -/
theorem at7_v97 (c : Dev nD) : W7 m ρ c (Proc.devRef .tc main_v97) = shapeCast S1x64 (m ((c : Thread nD τ).loc main_arg18)) shapeCasts_S64x1_S1x64 := by
  show StableHlo.after hostOps3 (W6 m ρ c) (Proc.devRef .tc main_v97) = _
  after_results_simp
  rw [at6_arg18 m ρ c]
  rfl

set_option maxHeartbeats 8000000 in
/-- The head's second bias as a [1, 1] array. -/
theorem at7_v99 (c : Dev nD) : W7 m ρ c (Proc.devRef .tc main_v99) = shapeCast S1x1 (m ((c : Thread nD τ).loc main_arg19)) shapeCasts_S1_S1x1 := by
  show StableHlo.after hostOps3 (W6 m ρ c) (Proc.devRef .tc main_v99) = _
  after_results_simp
  rw [at6_arg19 m ρ c]
  rfl

/-- The last region's output: the pair scores as a column. -/
theorem at8_v100 (c : Dev nD) : W8 m ρ c (Proc.devRef .tc main_v100)
    = pairScore (Host.gather rowTake (extractStridedSlice S50000x64 ![0, 0] (nodeSpace (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) slices_S50000x128_S50000x64_0_0) (val_main_v133 (F := Ideal) (m ((c : Thread nD τ).loc main_arg2)))) (Host.gather rowTake (extractStridedSlice S50000x64 ![0, 64] (nodeSpace (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) slices_S50000x128_S50000x64_0_64) (val_main_v140 (F := Ideal) (m ((c : Thread nD τ).loc main_arg3))))
        (shapeCast S1x64 (m ((c : Thread nD τ).loc main_arg17)) shapeCasts_S64_S1x64) (shapeCast S1x64 (m ((c : Thread nD τ).loc main_arg18)) shapeCasts_S64x1_S1x64) (shapeCast S1x1 (m ((c : Thread nD τ).loc main_arg19)) shapeCasts_S1_S1x1) :=
  (W8_arr m ρ c 5).trans ((score_final (V7 m ρ) c).trans (by
    rw [show V7 m ρ c main_v89 = _ from at7_v89 m ρ c,
      show V7 m ρ c main_v96 = _ from at7_v96 m ρ c,
      show V7 m ρ c main_v98 = _ from at7_v98 m ρ c,
      show V7 m ρ c main_v97 = _ from at7_v97 m ρ c,
      show V7 m ρ c main_v99 = _ from at7_v99 m ρ c]))

set_option maxHeartbeats 4000000 in
/-- THE KERNEL'S RESULT: after the last host stretch the result buffer holds the reference's last stage of the twenty argument
    arrays as launched. -/
theorem at9_v101 (c : Dev nD) : W9 m ρ c (Proc.devRef .tc main_v101) = val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  show StableHlo.after hostOps4 (W8 m ρ c) (Proc.devRef .tc main_v101) = _
  after_results_simp
  rw [at8_v100 m ρ c]
  exact score_eq _ _ _ _ _ _ _ _ _ _ _ _ _ _ _ _ _ _ _ _

end Cert.KernelIdeal.Hand

end
-- ==== Proof.lean ====
/-
  The certificate of a two-layer graph convolution with an edge-scoring head: the Pallas kernel against its jnp reference,
  equal as extended reals.

  Both programs compute, for 500000 node pairs (s, d) over a graph of 50000 nodes and 1.6 million edges,
      sigmoid (relu ([z[s] | z[d]] · H + b) · h + b'),     z = relu (bn (Â · relu (bn (Â · x W1 + b1)) W2 + b2)),
  where Â is the edge list's symmetric normalisation with self-loops and bn is batch normalisation with stored statistics.
  The reference does every step on the host. The kernel keeps the aggregation (row gathers and scatter-adds over the
  edge list) on the host, in the reference's own operations, and runs four pipelined regions: `x · W1`; normalise, clip
  and multiply by `W2`; normalise, clip and multiply by `[H[:64] | H[64:]]` in NODE space; and the head on the gathered
  halves. The two programs differ in three places only:
    * a gathered row is scaled by its edge weight on the right in one program and on the left in the other (the product
      of extended reals commutes);
    * the head's first matrix is applied before the two row gathers instead of after them, so the reference's sum over
      the 128 coordinates of a concatenated pair appears as a sum over the 64 of `z[s]` plus a sum over the 64 of `z[d]`
      (addition of extended reals is commutative and associative; no finiteness is used, and the precondition is never opened);
    * the kernel's logistic is the reference's `1 / (1 + exp (−x))`, by definition at the ideal instance.
  A region's matrix product into a zero accumulator and the host's `dot_general` are the same row–column sum; the format
  changes around the products are the identity; both programs use one single-precision literal for the normalisation's ε.

  The modules: `KernelRun` (the idealized kernel's run with its last boundary's contents in the post), `BlockProducts`,
  `NodeProducts`, `NormalizedProducts`, `EdgeScores` (each region's output array as one whole-array function of its
  operands), `StageBridges` (those functions against the reference's stages, index by index), `Boundaries` (what each
  boundary of the kernel's @main holds, ending at the result buffer). The frames of both printed kernels and the
  reference's run are the generated ones.
-/
import proofs.«154364_j16518444221032_2_alg».proof.Defs
import proofs.«154364_j16518444221032_2_alg».proof.Proof.Gen.Kernel
import proofs.«154364_j16518444221032_2_alg».proof.Proof.Gen.Kernel.Skeleton
import proofs.«154364_j16518444221032_2_alg».proof.Proof.Gen.Kernel.Launch
import proofs.«154364_j16518444221032_2_alg».proof.Proof.Gen.Kernel.Points
import proofs.«154364_j16518444221032_2_alg».proof.Proof.Gen.Kernel.Frame
import proofs.«154364_j16518444221032_2_alg».proof.Proof.Gen.KernelIdeal
import proofs.«154364_j16518444221032_2_alg».proof.Proof.Gen.KernelIdeal.Skeleton
import proofs.«154364_j16518444221032_2_alg».proof.Proof.Gen.KernelIdeal.Launch
import proofs.«154364_j16518444221032_2_alg».proof.Proof.Gen.KernelIdeal.Points
import proofs.«154364_j16518444221032_2_alg».proof.Proof.Gen.KernelIdeal.Frame
import proofs.«154364_j16518444221032_2_alg».proof.Proof.Gen.ReferenceIdeal
import proofs.«154364_j16518444221032_2_alg».proof.Proof.Gen.ReferenceIdeal.Run
import proofs.«154364_j16518444221032_2_alg».proof.Proof.Gen.ReferenceIdeal.Read
import proofs.«154364_j16518444221032_2_alg».proof.Proof.Gen.Pre_finite_inputs
import proofs.«154364_j16518444221032_2_alg».proof.Proof.KernelRun
import proofs.«154364_j16518444221032_2_alg».proof.Proof.Boundaries
import Idealize.ShloMosaic.Adequacy
import Idealize.ShloMosaic.Init

set_option maxRecDepth 16384

noncomputable section

namespace Cert.Proof

open Idealize.ShloMosaic Idealize.SL.Sem

/-- The printed kernel terminates without a fault and leaves its arguments unchanged: its four regions' generated frame. -/
theorem frame_kernel : Cert.frame_Kernel := fun m ρ _ => Cert.Kernel.Gen.frame m ρ

/-- The same for the idealized kernel. -/
theorem frame_kernelIdeal : Cert.frame_KernelIdeal := fun m ρ _ => Cert.KernelIdeal.Gen.frame m ρ

/-- The reference is a straight line of host operations: its generated run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the twenty arguments both programs end with the scores at ONE term: the reference's last stage
    of the arguments. The kernel's result buffer holds it after its last host stretch (`Boundaries`), the reference's by
    its generated run. -/
theorem algebraic : Cert.algebraic_KernelIdeal_ReferenceIdeal := by
  intro m ρ m' ρ' _ hagree
  refine ⟨fun c => Cert.ReferenceIdeal.Read.val_main_v158 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Cert.KernelIdeal.Hand.at9_v101 m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v158_eq,
      (hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2.1,
      (hagree c).2.2.2.2.2.2.2.2.2.2.2.2.2.1,
      (hagree c).2.2.2.2.2.2.2.2.2.2.2.2.2.2.1,
      (hagree c).2.2.2.2.2.2.2.2.2.2.2.2.2.2.2.1,
      (hagree c).2.2.2.2.2.2.2.2.2.2.2.2.2.2.2.2.1,
      (hagree c).2.2.2.2.2.2.2.2.2.2.2.2.2.2.2.2.2.1,
      (hagree c).2.2.2.2.2.2.2.2.2.2.2.2.2.2.2.2.2.2.1,
      (hagree c).2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
